-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128 .f32) (main_arg4 : FVec F S128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S512x2048 : Shape := ⟨2, ![512, 2048]⟩
abbrev S512x128 : Shape := ⟨2, ![512, 128]⟩
abbrev S4096 : Shape := ⟨1, ![4096]⟩
abbrev S4096x1 : Shape := ⟨2, ![4096, 1]⟩
abbrev S2048x128 : Shape := ⟨2, ![2048, 128]⟩

abbrev nBuf : Space → Nat
  | .hbm => 10
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x128, .f32⟩
  | .local _ .vmem, ⟨10, _⟩ => ⟨S512x128, .f32⟩
  | .local _ .vmem, ⟨11, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  reduces_S4096x128_S128 : S4096x128.Reduces [0] S128
  broadcasts_S1x128_S4096x128 : S1x128.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S512x2048_S512x2048_0_0 : ∀ a, (![0, 0] : Fin 2 → Nat) a + S512x2048.size a ≤ S512x2048.size a
  h_S512x2048 : 0 < S512x2048.numel
  inb_S4096x128_S2048x128_0_0 : ∀ a, (![0, 0] : Fin 2 → Nat) a + S2048x128.size a ≤ S4096x128.size a
  h_S2048x128 : 0 < S2048x128.numel
  inb_S4096x128_S2048x128_2048_0 : ∀ a, (![2048, 0] : Fin 2 → Nat) a + S2048x128.size a ≤ S4096x128.size a
  inb_S512x128_S512x128_0_0 : ∀ a, (![0, 0] : Fin 2 → Nat) a + S512x128.size a ≤ S512x128.size a
  h_S512x128 : 0 < S512x128.numel
  dot_S4096x128_S128x128_S4096x128_1_1_0_0_n_n_wf : DotDims.WF S4096x128 S128x128 S4096x128 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x4096.size a
  hwx0_5 : ∀ i : grid0.Coords, EltTy.bits .f32 = 32 ∨ (Rect.block (s := S4096x4096) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x4096.size a
  hwx0_6 : ∀ i : grid0.Coords, EltTy.bits .f32 = 32 ∨ (Rect.block (s := S4096x4096) S512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4096x128, .f32⟩
  | .hbm, ⟨53, _⟩ => ⟨S4096x128, .f32⟩
  | .hbm, ⟨54, _⟩ => ⟨S1x128, .f32⟩
  | .hbm, ⟨55, _⟩ => ⟨S4096x128, .f32⟩
  | .hbm, ⟨56, _⟩ => ⟨S4096x128, .f32⟩
  | .hbm, ⟨57, _⟩ => ⟨S1x128, .f32⟩
  | .hbm, ⟨58, _⟩ => ⟨S4096x128, .f32⟩
  | .hbm, ⟨59, _⟩ => ⟨S4096x128, .f32⟩
  | .hbm, ⟨60, _⟩ => ⟨S128x128, .f32⟩
  | .hbm, ⟨61, _⟩ => ⟨S4096x128, .f32⟩
  | .hbm, ⟨62, _⟩ => ⟨S1x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S_, .f32⟩
  | .hbm, ⟨67, _⟩ => ⟨S4096x128, .f32⟩
  | .hbm, ⟨68, _⟩ => ⟨S4096x128, .i1⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_cst_1 : Ref sig .tc := ⟨.hbm, 32, rfl⟩
abbrev main_call1_v8 : Ref sig .tc := ⟨.hbm, 33, rfl⟩
abbrev main_call1_cst_2 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_cst_3 : Ref sig .tc := ⟨.hbm, 38, rfl⟩
abbrev main_call1_v12 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S4096x128_S128_d0 : S4096x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)
  transposes_S128x128_S128x128_1_0 : S128x128.Transposes [1, 0] S128x128
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KernelBodyWords.lean ====
/-
  The kernel body at a symbolic grid point.

  The grid has 8 points; point `i` handles rows `512 i … 512 i + 511` of the result.  At the first point the body
  computes the whole linear-layer output (all 4096 rows) from the staged blocks of `H`, `W`, `b`, `gamma`, `beta` and
  stores it in its scratch buffer; at every point it multiplies the two staged half-row blocks of `A` (512 rows, columns
  0–2047 and 2048–4095) with rows 0–2047 and 2048–4095 of the scratch, adds the two products, applies the leaky rectifier
  and stores the 512 × 128 block into the result's staging buffer.

  Two runs are stated, each at any point of its kind: at the first point the scratch may hold anything beforehand and ends
  at `linv` of the input blocks; at a later point it holds some contents `s` and keeps them.  In both the result's staging
  buffer ends at `outv` of the two blocks of `A` and the scratch contents after the run.  Each is what the stores leave,
  read as the canonical contents of the list of stored pieces.
-/
import proofs.«171944_g35983236006066_cont_8to1_b_995_5_alg».proof.Proof.Gen.Kernel
import proofs.«171944_g35983236006066_cont_8to1_b_995_5_alg».proof.Proof.Gen.Kernel.Skeleton
import proofs.«171944_g35983236006066_cont_8to1_b_995_5_alg».proof.Proof.Gen.Kernel.Launch
import proofs.«171944_g35983236006066_cont_8to1_b_995_5_alg».proof.Proof.Gen.Kernel.Points
import Idealize.ShloMosaic.Lib.Writes
import Idealize.ShloMosaic.Lib.Pipeline.FrameBody
import Idealize.ShloMosaic.Lib.Tactic

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffer, whole: 4096 × 128. -/
abbrev scrM : Memref sig .tc .vmem S4096x128 .f32 := Memref.whole cc0_scratch0

/-- The rectangles the body reads and writes through: each buffer whole, and the scratch's upper and lower halves. -/
abbrev rS : Rect S4096x128 := Rect.unit (s := S4096x128) ![0, 0] S4096x128.size inb_S4096x128_S4096x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0
abbrev rA : Rect S512x2048 := Rect.unit (s := S512x2048) ![0, 0] S512x2048.size inb_S512x2048_S512x2048_0_0
abbrev rO : Rect S512x128 := Rect.unit (s := S512x128) ![0, 0] S512x128.size inb_S512x128_S512x128_0_0
abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0

/-- "This is the first grid point", as the body computes it from the point's coordinate. -/
abbrev IsFirst (t : Fin cfg0.N) : Prop :=
  Scalar.cmpi .ne (Scalar.extui (Scalar.cmpi .eq (BitVec.ofNat 32 ((grid0.coords t) 0).val) 0#32)) 0#32 = 1#1

/-- The scratch after the first point: the linear layer's output of the blocks of `H`, `W`, `b`, `gamma`, `beta`. -/
abbrev linv (x0 : Vec F S4096x128 .f32) (x1 : Vec F S128x128 .f32) (x2 x3 x4 : Vec F S1x128 .f32) : Vec F S4096x128 .f32 :=
  View.canon [⟨rS, k0_pay1 (k0_pay3 (View.ld x0 rS) (View.ld x3 rRow) (View.ld x4 rRow) (View.ld x1 rW) (View.ld x2 rRow))⟩]

/-- The block a point stores: the rectified sum of the two half products, from the blocks of `A` and the scratch `s`. -/
abbrev outv (x5 x6 : Vec F S512x2048 .f32) (s : Vec F S4096x128 .f32) : Vec F S512x128 .f32 :=
  View.canon [⟨rO, k0_pay2 (View.ld x5 rA) (View.ld s rLo) (View.ld x6 rA) (View.ld s rHi)⟩]

/-- A load of the scratch's halves after the stores `L` reads the canonical contents of `L` through the halves. -/
theorem outv_of_readCov (x5 x6 : Vec F S512x2048 .f32) (L : List (View.Piece (Elt F) S4096x128 .f32)) :
    View.canon [(⟨rO, k0_pay2 (View.ld x5 rA) (scrM.view.readCov L rLo.toLoadRect) (View.ld x6 rA) (scrM.view.readCov L rHi.toLoadRect)⟩ : View.Piece (Elt F) S512x128 .f32)]
      = outv x5 x6 (View.canon L) := by
  rw [View.readCov_eq_canon', View.readCov_eq_canon']

section Runs

variable (c : Dev nD) (t : Fin cfg0.N)
  (M0 : Memref sig .tc .vmem S4096x128 .f32) (h0 : M0.IsWhole) (M1 : Memref sig .tc .vmem S128x128 .f32) (h1 : M1.IsWhole)
  (M2 : Memref sig .tc .vmem S1x128 .f32) (h2 : M2.IsWhole) (M3 : Memref sig .tc .vmem S1x128 .f32) (h3 : M3.IsWhole)
  (M4 : Memref sig .tc .vmem S1x128 .f32) (h4 : M4.IsWhole) (M5 : Memref sig .tc .vmem S512x2048 .f32) (h5 : M5.IsWhole)
  (M6 : Memref sig .tc .vmem S512x2048 .f32) (h6 : M6.IsWhole) (M7 : Memref sig .tc .vmem S512x128 .f32) (h7 : M7.IsWhole)
  (x0 : Vec F S4096x128 .f32) (x1 : Vec F S128x128 .f32) (x2 x3 x4 : Vec F S1x128 .f32) (x5 x6 : Vec F S512x2048 .f32)

local notation "KER" => cc0__fused_kernel (grid0.coords t) M0 h0 M1 h1 M2 h2 M3 h3 M4 h4 M5 h5 M6 h6 M7 h7 (Memref.whole cc0_scratch0) (Memref.isWhole_whole _)

/-- The first point: whatever the scratch and the result's buffer held, the scratch ends at `linv` of the input blocks and
    the result's buffer at `outv` over it; the seven input buffers are as they were. -/
theorem run_first (hF : IsFirst t) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ (∃ d, owns (c : Thread nD τ) M7 fullShare d) ∗ (∃ a, owns (c : Thread nD τ) scrM fullShare a)
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare (outv x5 x6 (linv x0 x1 x2 x3 x4))
          ∗ owns (c : Thread nD τ) scrM fullShare (linv x0 x1 x2 x3 x4)) -∗ Q ⟨⟩))
      ⊢ wp frame (wpE (defs₀ (F := F)) Variants.none c none) Set.univ KER Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%a', %fa, %hfa, Ha⟩, Hk⟩
  subst hf0 hf1 hf2 hf3 hf4 hf5 hf6
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7); ipureintro
    exact (View.read_writes_junk_eq_canon _ _).trans
      (outv_of_readCov (M5.view.read (Elt F) f5) (M6.view.read (Elt F) f6)
        [⟨rS, k0_pay1 (k0_pay3 (View.ld (M0.view.read (Elt F) f0) rS) (View.ld (M3.view.read (Elt F) f3) rRow)
          (View.ld (M4.view.read (Elt F) f4) rRow) (View.ld (M1.view.read (Elt F) f1) rW) (View.ld (M2.view.read (Elt F) f2) rRow))⟩])
  iexists _; isplitr; swap; (· iexact Ha); ipureintro
  exact View.read_writes_junk_eq_canon _ _

/-- A later point: the scratch at `s` stays at `s`, and the result's buffer ends at `outv` over it; the seven input
    buffers are as they were. -/
theorem run_later (hF : ¬ IsFirst t) (s : Vec F S4096x128 .f32) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ (∃ d, owns (c : Thread nD τ) M7 fullShare d) ∗ owns (c : Thread nD τ) scrM fullShare s
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare (outv x5 x6 s)
          ∗ owns (c : Thread nD τ) scrM fullShare s) -∗ Q ⟨⟩))
      ⊢ wp frame (wpE (defs₀ (F := F)) Variants.none c none) Set.univ KER Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%fa, %hfa, Ha⟩, Hk⟩
  subst hf0 hf1 hf2 hf3 hf4 hf5 hf6 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7); ipureintro
    exact View.read_writes_junk_eq_canon _ _
  iexists fa; isplitr; (· ipureintro; rfl); iexact Ha

end Runs

end Cert.Proof.KernelRun

end
-- ==== Proof.KernelRunWords.lean ====
/-
  The kernel's run: every weakly fair execution of the program terminates without a fault, the six argument arrays end as
  they began, and the result array ends at the account of its eight blocks.

  The program reshapes `b`, `gamma`, `beta` to rows and then launches one kernel over a grid of 8 points.  Two of the
  kernel's windows read the SAME array (`A`, its left and right column halves), so the array's ownership is dealt to the
  two windows half and half, and each ends holding it unchanged.  The invariant carried from point to point is the
  scratch buffer: anything before the first point, the linear layer's output of the whole input from then on.  What a
  point leaves in the result's staging buffer is `outv` of that point's two blocks of `A` and this scratch.
-/
import proofs.«171944_g35983236006066_cont_8to1_b_995_5_alg».proof.Proof.KernelBodyWords
import Idealize.ShloMosaic.Lib.Pipeline.Kit
import Idealize.ShloMosaic.Lib.StableHlo.Run

set_option maxRecDepth 16384

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- A core's buffers after the three reshapes, when the kernel is launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the launch: the three reshapes, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the kernel finds each as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch from the first point on: the linear layer's output of the five whole input blocks. -/
def lin0 (c : Dev nD) : Vec F S4096x128 .f32 :=
  linv (iblk m c 0 t0_0) (iblk m c 1 t0_0) (iblk m c 2 t0_0) (iblk m c 3 t0_0) (iblk m c 4 t0_0)

/-- What point `t` leaves in the result's staging buffer. -/
def outAt (c : Dev nD) (t : Fin cfg0.N) : Vec F S512x128 .f32 := outv (iblk m c 5 t) (iblk m c 6 t) (lin0 m c)

/-- The invariant before point `k` (k = 0 … 8): the scratch at anything before the first point, at `lin0` afterwards. -/
def Φs (c : Dev nD) (k : Fin (cfg0.N + 1)) : sProp 𝕄 :=
  if k.val = 0 then iprop(∃ a, owns (c : Thread nD τ) scrM fullShare a) else owns (c : Thread nD τ) scrM fullShare (lin0 m c)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ k := Φs m c k
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
  owed _ := 0

abbrev 𝒱₀ : Variants := Variants.none

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; try rfl)
theorem after_0 (c : Dev nD) (t : Fin cfg0.N) : (dats m 0 c).after 0 t = iblk m c 0 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; try rfl)
theorem after_1 (c : Dev nD) (t : Fin cfg0.N) : (dats m 0 c).after 1 t = iblk m c 1 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; try rfl)
theorem after_2 (c : Dev nD) (t : Fin cfg0.N) : (dats m 0 c).after 2 t = iblk m c 2 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; try rfl)
theorem after_3 (c : Dev nD) (t : Fin cfg0.N) : (dats m 0 c).after 3 t = iblk m c 3 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; try rfl)
theorem after_4 (c : Dev nD) (t : Fin cfg0.N) : (dats m 0 c).after 4 t = iblk m c 4 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; try rfl)
theorem after_5 (c : Dev nD) (t : Fin cfg0.N) : (dats m 0 c).after 5 t = iblk m c 5 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; try rfl) t d).trans
    (by unfold Dat.fetched Dat.blockOf iblk; try rfl)
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- The first point is point 0. -/
theorem isFirst_iff : ∀ t : Fin cfg0.N, IsFirst t ↔ t.val = 0 :=
  (by decide +kernel : ∀ t : Fin grid0.N, (Scalar.cmpi .ne (Scalar.extui (Scalar.cmpi .eq (BitVec.ofNat 32 ((grid0.coords t) 0).val) 0#32)) 0#32 = 1#1) ↔ t.val = 0)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_eq (c : Dev nD) (k : Fin (cfg0.N + 1)) : (dats m 0 c).Φ k = Φs m c k := by dsimp only [dats]
theorem Φ_pre_first (c : Dev nD) (t : Fin cfg0.N) (h : t.val = 0) :
    (dats m 0 c).Φ t.castSucc = iprop(∃ a, owns (c : Thread nD τ) scrM fullShare a) := by
  rw [Φ_eq]; unfold Φs; rw [if_pos (by exact h)]
theorem Φ_pre_later (c : Dev nD) (t : Fin cfg0.N) (h : t.val ≠ 0) :
    (dats m 0 c).Φ t.castSucc = owns (c : Thread nD τ) scrM fullShare (lin0 m c) := by
  rw [Φ_eq]; unfold Φs; rw [if_neg (by exact h)]
theorem Φ_post (c : Dev nD) (t : Fin cfg0.N) :
    (dats m 0 c).Φ t.succ = owns (c : Thread nD τ) scrM fullShare (lin0 m c) := by
  rw [Φ_eq]; unfold Φs; rw [if_neg (by show ¬ (t.val + 1 = 0); omega)]

/-- The body obligation at every point: the run of the point's kind between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, before_5, before_6, after_0, after_1, after_2, after_3, after_4, after_5, after_6, after_7]
  rw [Φ_post m c t]
  by_cases hF : IsFirst t
  · have h0 : t.val = 0 := (isFirst_iff t).mp hF
    obtain rfl : t = t0_0 := Fin.ext h0
    rw [Φ_pre_first m c t0_0 h0]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c t0_0 (st0_0 t0_0) (hstage0_0 ((cfg0.slots t0_0 0).cast nbuf0_0)) (st0_1 t0_0) (hstage0_1 ((cfg0.slots t0_0 1).cast nbuf0_1))
      (st0_2 t0_0) (hstage0_2 ((cfg0.slots t0_0 2).cast nbuf0_2)) (st0_3 t0_0) (hstage0_3 ((cfg0.slots t0_0 3).cast nbuf0_3))
      (st0_4 t0_0) (hstage0_4 ((cfg0.slots t0_0 4).cast nbuf0_4)) (st0_5 t0_0) (hstage0_5 ((cfg0.slots t0_0 5).cast nbuf0_5))
      (st0_6 t0_0) (hstage0_6 ((cfg0.slots t0_0 6).cast nbuf0_6)) (st0_7 t0_0) (hstage0_7 ((cfg0.slots t0_0 7).cast nbuf0_7))
      (iblk m c 0 t0_0) (iblk m c 1 t0_0) (iblk m c 2 t0_0) (iblk m c 3 t0_0) (iblk m c 4 t0_0) (iblk m c 5 t0_0) (iblk m c 6 t0_0) hF)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [Ha]; · iexact Ha
    iintro ⟨H0, H1, H2, H3, H4, H5, H6, H7, Ha⟩
    isplitl [Ha]; · iexact Ha
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h0 : t.val ≠ 0 := fun h => hF ((isFirst_iff t).mpr h)
    rw [Φ_pre_later m c t h0]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) (iblk m c 4 t) (iblk m c 5 t) (iblk m c 6 t) hF (lin0 m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [Ha]; · iexact Ha
    iintro ⟨H0, H1, H2, H3, H4, H5, H6, H7, Ha⟩
    isplitl [Ha]; · iexact Ha
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The launch -/

/-- The windows' arrays, each held through its whole buffer. -/
theorem arrays_eq (c : Dev nD) (G : (w : Fin cfg0.W) → Buf (Elt F) ((cfg0.win w).arr.view.loc (c : Thread nD τ))) :
    (dats m 0 c).arrays G
      = bigSep Finset.univ fun w : Fin 8 => ((((c : Thread nD τ).loc (Pipeline.arrRef spec0 w)) ↦{(dats m 0 c).share w} G w) : sProp 𝕄) := by
  unfold Dat.arrays
  exact bigSep_congr fun w _ => by rw [(arr_whole0 w).set_eq_univ]

theorem arr_0 (c : Dev nD) :
    ((((c : Thread nD τ).loc (Pipeline.arrRef spec0 0)) ↦{(dats m 0 c).share 0} (dats m 0 c).arrAt 0 0) : sProp 𝕄)
      = (((c : Thread nD τ).loc main_arg0) ↦{fullShare} V m c main_arg0) := rfl
theorem arr_1 (c : Dev nD) :
    ((((c : Thread nD τ).loc (Pipeline.arrRef spec0 1)) ↦{(dats m 0 c).share 1} (dats m 0 c).arrAt 1 0) : sProp 𝕄)
      = (((c : Thread nD τ).loc main_arg2) ↦{fullShare} V m c main_arg2) := rfl
theorem arr_2 (c : Dev nD) :
    ((((c : Thread nD τ).loc (Pipeline.arrRef spec0 2)) ↦{(dats m 0 c).share 2} (dats m 0 c).arrAt 2 0) : sProp 𝕄)
      = (((c : Thread nD τ).loc main_v0) ↦{fullShare} V m c main_v0) := rfl
theorem arr_3 (c : Dev nD) :
    ((((c : Thread nD τ).loc (Pipeline.arrRef spec0 3)) ↦{(dats m 0 c).share 3} (dats m 0 c).arrAt 3 0) : sProp 𝕄)
      = (((c : Thread nD τ).loc main_v1) ↦{fullShare} V m c main_v1) := rfl
theorem arr_4 (c : Dev nD) :
    ((((c : Thread nD τ).loc (Pipeline.arrRef spec0 4)) ↦{(dats m 0 c).share 4} (dats m 0 c).arrAt 4 0) : sProp 𝕄)
      = (((c : Thread nD τ).loc main_v2) ↦{fullShare} V m c main_v2) := rfl
theorem arr_5 (c : Dev nD) :
    ((((c : Thread nD τ).loc (Pipeline.arrRef spec0 5)) ↦{(dats m 0 c).share 5} (dats m 0 c).arrAt 5 0) : sProp 𝕄)
      = (((c : Thread nD τ).loc main_arg1) ↦{fullShare.left} V m c main_arg1) := rfl
theorem arr_6 (c : Dev nD) :
    ((((c : Thread nD τ).loc (Pipeline.arrRef spec0 6)) ↦{(dats m 0 c).share 6} (dats m 0 c).arrAt 6 0) : sProp 𝕄)
      = (((c : Thread nD τ).loc main_arg1) ↦{fullShare.right} V m c main_arg1) := rfl
theorem arr_7 (c : Dev nD) :
    ((((c : Thread nD τ).loc (Pipeline.arrRef spec0 7)) ↦{(dats m 0 c).share 7} (dats m 0 c).arrAt 7 0) : sProp 𝕄)
      = (((c : Thread nD τ).loc main_v3) ↦{fullShare} V m c main_v3) := rfl

/-- The seven buffers behind the eight windows' arrays make the proof data's arrays at entry: `A`'s buffer is dealt to
    its two windows half and half, every other buffer goes whole to its one window. -/
theorem arrBufs_eq (c : Dev nD) :
    (Pipeline.arrBufs spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_v0) ↦{fullShare} V m c main_v0) ∗ (((c : Thread nD τ).loc main_v1) ↦{fullShare} V m c main_v1)
          ∗ (((c : Thread nD τ).loc main_v2) ↦{fullShare} V m c main_v2) ∗ (((c : Thread nD τ).loc main_arg1) ↦{fullShare} V m c main_arg1)
          ∗ (((c : Thread nD τ).loc main_v3) ↦{fullShare} V m c main_v3)) :=
  bigSep_eq_bigSepL_of_eq [main_arg0, main_arg2, main_v0, main_v1, main_v2, main_arg1, main_v3] (by decide) (by decide) _

/-- `A`'s buffer held whole is the two halves of its ownership, each at the same contents. -/
theorem halve (c : Dev nD) :
    ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
  (pointsTo_share (PosShare.mem_left_op_right fullShare)).1

theorem hsplit (c : Dev nD) : (Pipeline.arrBufs spec0 c (V m c) : sProp 𝕄) ⊢ (dats m 0 c).arrays ((dats m 0 c).arrAt · 0) := by
  rw [arrays_eq m c, bigSep_W0, arr_0 m c, arr_1 m c, arr_2 m c, arr_3 m c, arr_4 m c, arr_5 m c, arr_6 m c, arr_7 m c]
  rw [arrBufs_eq m c]
  iintro ⟨H0, H2, Hv0, Hv1, Hv2, H1, Hv3⟩
  ihave H1' := (halve m c) $$ H1
  icases H1' with ⟨H1l, H1r⟩
  isplitl [H0]; · iexact H0
  isplitl [H2]; · iexact H2
  isplitl [Hv0]; · iexact Hv0
  isplitl [Hv1]; · iexact Hv1
  isplitl [Hv2]; · iexact Hv2
  isplitl [H1l]; · iexact H1l
  isplitl [H1r]; · iexact H1r
  iexact Hv3

/-- Before the first point the scratch, the one buffer of the kernel's own, holds anything. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest0_eq, Φ_eq]
  unfold Φs; rw [if_pos (show ((0 : Fin (cfg0.N + 1)).val = 0) from rfl)]
  iintro ⟨-, ⟨%f, Hf⟩⟩
  iexists f; rw [owns_whole]; iexact Hf

/-- After the last point it is given back, its contents forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [scopedRest0_eq, Φ_eq]
  unfold Φs; rw [if_neg (show ¬ ((Fin.last cfg0.N).val = 0) from by have h : cfg0.N = 8 := N_0; show ¬ (cfg0.N = 0); omega), owns_whole]
  iintro Hf
  isplitr; · iempintro
  iexists _; iexact Hf

/-- What the run ends with: every window's array at the account of its blocks, every other argument buffer as the
    kernel found it. -/
def Post (r : PUnit × MemSt nD τ sig (Elt F)) : Prop :=
  ∀ c : Dev nD, (∀ w, r.2.mem ((cfg0.spec w).arr.view.loc (c.tc : Thread nD τ)) = (dats m 0 c).arrAt w cfg0.N)
    ∧ (∀ b ∈ Pipeline.restRefs sig spec0, r.2.mem ((c.tc : Thread nD τ).loc b) = V m c b)

set_option backward.isDefEq.respectTransparency.types false in
/-- Every weakly fair execution of the program terminates without a fault, in a state satisfying `Post`. -/
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m 𝒱₀) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; (· iempintro); iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h => h)

/-- The run with the result named: the result array ends at the account of its eight blocks, the six argument arrays as
    they began. -/
theorem run_result : θ_run defs (onTc (τ := τ) (main (F := F))) ⟨m, fun _ => 0, ρ⟩ (fun r => ∀ c : Dev nD,
      r.2.mem ((c.tc : Thread nD τ).loc main_v3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 7,
     ((h c).1 0).trans (((dats m 0 c).arrAt_in 0 rfl _).trans (V_main_arg0 m c)),
     ((h c).1 5).trans (((dats m 0 c).arrAt_in 5 rfl _).trans (V_main_arg1 m c)),
     ((h c).1 1).trans (((dats m 0 c).arrAt_in 1 rfl _).trans (V_main_arg2 m c)),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

/-- The frame: the program runs to the end and its six argument arrays end as they began — `H`, `A`, `W` read back through
    a window that stages them and never writes, `b`, `gamma`, `beta` left aside by the kernel. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (V_main_arg0 m c)),
     ((h c).1 5).trans (((dats m 0 c).arrAt_in 5 rfl _).trans (V_main_arg1 m c)),
     ((h c).1 1).trans (((dats m 0 c).arrAt_in 1 rfl _).trans (V_main_arg2 m c)),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

end Cert.Proof.KernelRun

end
-- ==== Proof.GcnSpec.lean ====
/-
  The graph-convolution layer as one function of its six arrays, entry by entry, over the extended reals.

  Rows of `H` are scaled to unit Euclidean length (the length floored at a tiny constant), every column is centred and
  scaled by its own batch statistics (mean and biased variance over the 4096 rows), an affine map (`gamma`, `beta`)
  and a linear layer (`W`, `b`) follow, the result is multiplied on the left by the 4096 × 4096 matrix `A`, and a leaky
  rectifier (slope 0.01 below zero) is applied.

  Two spellings are stated.  They differ in two places only: the column scale is a product with the reciprocal square
  root of the variance-plus-epsilon in one and a quotient by its square root in the other; and the product with `A` is
  one sum over all 4096 columns in one and the sum of the two halves (columns 0–2047, columns 2048–4095) in the other.
  The float constants are kept as their binary words, the same words in both spellings.
-/
import Idealize.ShloMosaic.PureOps.Ideal
import Idealize.ShloMosaic.Lib.ValueIdx

noncomputable section

namespace Cert.Gcn

open Idealize.ShloMosaic

/-- The floor of a row's length, `f32(1e-12)`. -/
abbrev tiny : EReal := Ideal.ofBits .f32 0x2B8CBCCC#32
/-- The number of rows, `4096`. -/
abbrev rows : EReal := Ideal.ofBits .f32 0x45800000#32
/-- The variance's epsilon, `f32(1e-5)`. -/
abbrev eps : EReal := Ideal.ofBits .f32 0x3727C5AC#32
/-- The rectifier's slope, `f32(0.01)`. -/
abbrev slope : EReal := Ideal.ofBits .f32 0x3C23D70A#32
/-- Zero. -/
abbrev zero : EReal := Ideal.ofBits .f32 0x00000000#32

variable (H : Fin 4096 → Fin 128 → EReal) (A : Fin 4096 → Fin 4096 → EReal) (W : Fin 128 → Fin 128 → EReal)
  (b g be : Fin 128 → EReal)

/-- A row of `H` divided by its length, the length floored at `tiny`. -/
def unitRow (r : Fin 4096) (k : Fin 128) : EReal :=
  Ideal.div (H r k) (max (Ideal.sqrt (∑ k' : Fin 128, H r k' * H r k')) tiny)

/-- A column's mean over the rows. -/
def colMean (k : Fin 128) : EReal := Ideal.div (∑ r : Fin 4096, unitRow H r k) rows

/-- An entry less its column's mean. -/
def centred (r : Fin 4096) (k : Fin 128) : EReal := unitRow H r k - colMean H k

/-- A column's biased variance over the rows. -/
def colVar (k : Fin 128) : EReal := Ideal.div (∑ r : Fin 4096, centred H r k * centred H r k) rows

/-- The normalised entry, scaled by the reciprocal square root. -/
def normMul (r : Fin 4096) (k : Fin 128) : EReal :=
  centred H r k * Ideal.rsqrt (colVar H k + eps) * g k + be k

/-- The normalised entry, divided by the square root. -/
def normDiv (r : Fin 4096) (k : Fin 128) : EReal :=
  Ideal.div (centred H r k) (Ideal.sqrt (colVar H k + eps)) * g k + be k

/-- The linear layer on normalised rows `x`: `x · Wᵀ + b`. -/
def linear (x : Fin 4096 → Fin 128 → EReal) (r : Fin 4096) (j : Fin 128) : EReal :=
  (∑ k : Fin 128, x r k * W j k) + b j

/-- The leaky rectifier: `y` where `y ≥ 0`, else `slope · y`. -/
def leaky (y : EReal) : EReal := Scalar.select (Ideal.cmp .oge y zero) y (slope * y)

/-- Column `k` of the left half, as a column of the whole. -/
abbrev lo (k : Fin 2048) : Fin 4096 := ⟨k.val, by have := k.isLt; omega⟩
/-- Column `k` of the right half, as a column of the whole. -/
abbrev hi (k : Fin 2048) : Fin 4096 := ⟨2048 + k.val, by have := k.isLt; omega⟩

/-- The layer with the reciprocal square root and the product with `A` taken half by half. -/
def outHalves (r : Fin 4096) (j : Fin 128) : EReal :=
  leaky ((∑ k : Fin 2048, A r (lo k) * linear W b (normMul H g be) (lo k) j)
    + ∑ k : Fin 2048, A r (hi k) * linear W b (normMul H g be) (hi k) j)

/-- The layer with the quotient by the square root and the product with `A` as one sum. -/
def outWhole (r : Fin 4096) (j : Fin 128) : EReal :=
  leaky (∑ k : Fin 4096, A r k * linear W b (normDiv H g be) k j)

/-- A rank-2 array read by its two coordinates. -/
abbrev cur2 {n0 n1 : Nat} (x : (⟨2, ![n0, n1]⟩ : Shape).Idx → EReal) : Fin n0 → Fin n1 → EReal :=
  fun a c => x (ValueIdx.ix2 a c)
/-- A rank-1 array read by its coordinate. -/
abbrev cur1 {n : Nat} (x : (⟨1, ![n]⟩ : Shape).Idx → EReal) : Fin n → EReal := fun a => x (ValueIdx.ix1 a)

end Cert.Gcn

end
-- ==== Proof.LibRsqrtPositive.lean ====
/-
  The reciprocal square root against the square root on the extended reals, with nothing assumed finite.

  On the extended reals `rsqrt` sends a positive real `y` to `(√y)⁻¹`, the top element to `0` and `0` to the top; `sqrt`
  sends the top to the top; and a quotient `x / d` by a nonzero `d` is `x · d⁻¹`, the inverse of the top being `0`.  Hence
  for EVERY extended real `x` and every POSITIVE extended real `y` (the top included)
      x · rsqrt y = x / sqrt y :
  at a positive real both sides are `x · (√y)⁻¹`, at the top both are `0`.  No finiteness of `x` or `y` is needed, only
  `0 < y` — which a variance-plus-epsilon radicand always satisfies, whatever its entries: the square of an extended real
  is never negative (the square of either infinity is the top), so a finite sum of squares is never negative, neither is
  its quotient by a positive count, and adding a positive epsilon makes it positive.
-/
import Idealize.ShloMosaic.PureOps.Ideal
import Mathlib.Data.EReal.Inv
import Mathlib.Data.EReal.Operations
import Mathlib.Algebra.BigOperators.Fin

namespace ERealRsqrt

open Idealize.ShloMosaic
open scoped BigOperators

/-- `x · rsqrt y = x / sqrt y` for every extended real `x` and every positive extended real `y`. -/
theorem mul_rsqrt_eq_div_sqrt (x y : EReal) (hy : 0 < y) :
    x * Ideal.rsqrt y = Ideal.div x (Ideal.sqrt y) := by
  induction y with
  | bot => exact absurd hy (by simp)
  | top =>
    -- the reciprocal root of the top is zero; the root of the top is the top, and its inverse is zero
    show x * 0 = Ideal.div x ⊤
    rw [Ideal.div, if_neg EReal.top_ne_zero, EReal.inv_top]
  | coe r =>
    have hr : 0 < r := by exact_mod_cast hy
    have hs : Real.sqrt r ≠ 0 := (Real.sqrt_pos.mpr hr).ne'
    have h1 : Ideal.rsqrt (r : EReal) = (((Real.sqrt r)⁻¹ : ℝ) : EReal) := by
      rw [Ideal.rsqrt_coe, if_neg (not_lt.mpr hr.le), if_neg hr.ne']
    have h2 : Ideal.sqrt (r : EReal) = ((Real.sqrt r : ℝ) : EReal) := by
      rw [Ideal.sqrt_coe, if_neg (not_lt.mpr hr.le)]
    have hs' : ((Real.sqrt r : ℝ) : EReal) ≠ 0 := by exact_mod_cast hs
    rw [h1, h2, Ideal.div, if_neg hs', EReal.coe_inv]

/-- The square of an extended real is never negative. -/
theorem mul_self_nonneg (c : EReal) : 0 ≤ c * c := by
  rcases le_total 0 c with h | h
  · exact EReal.mul_nonneg h h
  · exact EReal.mul_nonneg_iff.mpr (Or.inr ⟨h, h⟩)

/-- A finite sum of squares of extended reals is never negative. -/
theorem sum_mul_self_nonneg {ι : Type*} (s : Finset ι) (f : ι → EReal) : 0 ≤ ∑ i ∈ s, f i * f i :=
  Finset.sum_nonneg fun _ _ => mul_self_nonneg _

/-- A nonnegative extended real divided by a positive one is nonnegative. -/
theorem div_nonneg {s d : EReal} (hs : 0 ≤ s) (hd : 0 < d) : 0 ≤ Ideal.div s d := by
  rw [Ideal.div, if_neg hd.ne']
  exact EReal.mul_nonneg hs (EReal.inv_nonneg_of_nonneg hd.le)

/-- A mean of squares plus a positive epsilon is positive, whatever the entries. -/
theorem radicand_pos {ι : Type*} (s : Finset ι) (f : ι → EReal) {n e : EReal} (hn : 0 < n) (he : 0 < e) :
    0 < Ideal.div (∑ i ∈ s, f i * f i) n + e :=
  Right.add_pos_of_nonneg_of_pos (div_nonneg (sum_mul_self_nonneg s f) hn) he

end ERealRsqrt
-- ==== Proof.GcnLaws.lean ====
/-
  Laws of the extended reals that make the two spellings of the layer the same function.

  * A product with the reciprocal square root of a positive extended real is the quotient by its square root, at every
    extended real numerator: at a positive real both are the product with the inverse of the real square root, and at
    the top element both are zero (the reciprocal root of the top is zero; the root of the top is the top, whose inverse
    is zero).
  * The variance of a column plus the epsilon is positive whatever the entries are: a square of an extended real is
    never negative (the square of either infinity is the top), a finite sum of such squares is never negative, its
    quotient by 4096 is never negative, and the epsilon is a positive real.
  * A sum over 4096 positions is the sum over the first 2048 plus the sum over the last 2048.

  No entry is assumed finite anywhere below.
-/
import proofs.«171944_g35983236006066_cont_8to1_b_995_5_alg».proof.Proof.GcnSpec
import proofs.«171944_g35983236006066_cont_8to1_b_995_5_alg».proof.Proof.LibRsqrtPositive
import Mathlib.Data.EReal.Inv
import Mathlib.Data.EReal.Operations
import Mathlib.Algebra.BigOperators.Fin

namespace Cert.Gcn

open Idealize.ShloMosaic
open scoped BigOperators

/-! ### The two float constants that matter, as reals -/

/-- The word `0x45800000` is `2²³ · 2⁻¹¹ = 4096`. -/
theorem rows_eq : rows = ((4096 : ℝ) : EReal) := by
  simp [rows, Ideal.ofBits, Ideal.ieee]
  rw [← EReal.coe_mul, EReal.coe_eq_coe_iff]
  norm_num

/-- The word `0x3727C5AC` is `(2²³ + 2606508) · 2⁻⁴⁰`, a positive real. -/
theorem eps_eq : eps = ((10995116 / 1099511627776 : ℝ) : EReal) := by
  simp [eps, Ideal.ofBits, Ideal.ieee]
  rw [← EReal.coe_mul, EReal.coe_eq_coe_iff]
  norm_num

theorem rows_pos : 0 < rows := by
  rw [rows_eq]; exact_mod_cast (by norm_num : (0 : ℝ) < 4096)

theorem rows_ne_zero : rows ≠ 0 := rows_pos.ne'

theorem eps_pos : 0 < eps := by
  rw [eps_eq]; exact_mod_cast (by norm_num : (0 : ℝ) < 10995116 / 1099511627776)

theorem eps_ne_bot : eps ≠ ⊥ := by
  rw [eps_eq]; exact EReal.coe_ne_bot _

theorem eps_ne_top : eps ≠ ⊤ := by
  rw [eps_eq]; exact EReal.coe_ne_top _

/-! ### Reciprocal square root against square root -/

/-- `x · rsqrt y = x / sqrt y` for every extended real `x` and every positive extended real `y`. -/
theorem mul_rsqrt_eq_div_sqrt (x y : EReal) (hy : 0 < y) :
    x * Ideal.rsqrt y = Ideal.div x (Ideal.sqrt y) :=
  ERealRsqrt.mul_rsqrt_eq_div_sqrt x y hy

/-! ### The radicand is positive -/

/-- The square of an extended real is never negative. -/
theorem mul_self_nonneg_ereal (c : EReal) : 0 ≤ c * c := ERealRsqrt.mul_self_nonneg c

/-- A nonnegative extended real divided by the number of rows is nonnegative. -/
theorem div_rows_nonneg {s : EReal} (hs : 0 ≤ s) : 0 ≤ Ideal.div s rows := ERealRsqrt.div_nonneg hs rows_pos

/-- A column's variance is never negative. -/
theorem colVar_nonneg (H : Fin 4096 → Fin 128 → EReal) (k : Fin 128) : 0 ≤ colVar H k :=
  div_rows_nonneg (Finset.sum_nonneg fun _ _ => mul_self_nonneg_ereal _)

/-- The variance plus the epsilon is positive. -/
theorem radicand_pos (H : Fin 4096 → Fin 128 → EReal) (k : Fin 128) : 0 < colVar H k + eps :=
  Right.add_pos_of_nonneg_of_pos (colVar_nonneg H k) eps_pos

/-- The two spellings of the normalised entry agree. -/
theorem normMul_eq_normDiv (H : Fin 4096 → Fin 128 → EReal) (g be : Fin 128 → EReal)
    (r : Fin 4096) (k : Fin 128) : normMul H g be r k = normDiv H g be r k := by
  unfold normMul normDiv
  rw [mul_rsqrt_eq_div_sqrt _ _ (radicand_pos H k)]

/-! ### A sum over 4096 positions as two halves -/

theorem sum_halves {M : Type*} [AddCommMonoid M] (f : Fin 4096 → M) :
    ∑ k : Fin 4096, f k = (∑ k : Fin 2048, f (lo k)) + ∑ k : Fin 2048, f (hi k) :=
  Fin.sum_univ_add (a := 2048) (b := 2048) f

/-! ### The two spellings of the layer agree -/

theorem outHalves_eq_outWhole (H : Fin 4096 → Fin 128 → EReal) (A : Fin 4096 → Fin 4096 → EReal)
    (W : Fin 128 → Fin 128 → EReal) (b g be : Fin 128 → EReal) (r : Fin 4096) (j : Fin 128) :
    outHalves H A W b g be r j = outWhole H A W b g be r j := by
  have hn : normMul H g be = normDiv H g be := by
    funext r' k; exact normMul_eq_normDiv H g be r' k
  unfold outHalves outWhole
  rw [hn, sum_halves (fun k => A r k * linear W b (normDiv H g be) k j)]

end Cert.Gcn
-- ==== Proof.RefRun.lean ====
/-
  The reference program as one straight line of array operations, and what its run leaves in the result array.

  The program takes a 4096 × 128 array `H`, a 4096 × 4096 array `A`, a 128 × 128 array `W` and three vectors of
  128 entries `b`, `gamma`, `beta`.  It divides every row of `H` by its Euclidean length (floored at a tiny
  constant), subtracts from every column its mean over the rows and divides it by the square root of its variance
  plus an epsilon, applies the affine map (`gamma`, `beta`) column by column, then the linear layer
  `x ↦ x · Wᵀ + b`, multiplies on the left by `A`, and keeps an entry where it is at least zero and 0.01 times it
  elsewhere.

  Three of these steps are functions the program calls (the row length; the variance, which itself calls an
  entrywise choice; the final entrywise choice).  A call runs the callee's operations on the caller's arrays, so the
  whole program is the list `ops` below: sixty-seven operations, each writing one array of its own.  `result` is the
  composition of their functions, stage by stage, as a function of the six argument arrays; `run` says that every
  run ends with the result array at `result` of the arguments and the arguments as they were.
-/
import proofs.«171944_g35983236006066_cont_8to1_b_995_5_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The program's sixty-seven operations in order, each call replaced by the callee's operations on that call's
    arrays: the row length (five), eleven of the program's own, the variance (nineteen, then the three of the choice
    it calls), twenty-eight of the program's own, the final choice (one). -/
abbrev ops : List (HloOp τ sig (Elt F)) :=
  [
    TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S4096x128_S4096_d1 h_S_),
    TRef.unary main_call0.v1 main_call0.v2 (broadcastInDim S4096x1 ![0] bcast_S4096_S4096x1_0),
    TRef.unary main_call0.v2 main_call0.v3 Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x128 ![0, 1] bcast_S4096x1_S4096x128_0_1 : (⟨S4096x1, .f32⟩ : BufTy).Contents (Elt F) → (⟨S4096x128, .f32⟩ : BufTy).Contents (Elt F)),
    binary main_arg0 main_v3 main_v4 (Host.divf : (⟨S4096x128, .f32⟩ : BufTy).Contents (Elt F) → (⟨S4096x128, .f32⟩ : BufTy).Contents (Elt F) → (⟨S4096x128, .f32⟩ : BufTy).Contents (Elt F)),
    nullary main_cst_0 (constant S_ .f32 0x00000000#32),
    binary main_v4 main_cst_0 main_v5 ((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)),
    nullary main_cst_1 (constant S_ .f32 0x45800000#32),
    unary main_cst_1 main_v6 (broadcastInDim S128 ![] bcast_S_S128 : (⟨S_, .f32⟩ : BufTy).Contents (Elt F) → (⟨S128, .f32⟩ : BufTy).Contents (Elt F)),
    binary main_v5 main_v6 main_v7 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call1.cst (constant S_ .f32 0x00000000#32),
    TRef.binary (.of main_v4) main_call1.cst main_call1.v0 (fun x v => Host.reduceAdd x v reducesTo_S4096x128_S128_d0 h_S_),
    TRef.unary main_call1.v0 main_call1.v1 (broadcastInDim S1x128 ![1] bcast_S128_S1x128_1),
    TRef.nullary main_call1.cst_0 (constant S_ .f32 0x45800000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S4096x128 ![0, 1] bcast_S1x128_S4096x128_0_1),
    TRef.binary (.of main_v4) main_call1.v4 main_call1.v5 subf,
    TRef.binary main_call1.v5 main_call1.v5 main_call1.v6 mulf,
    TRef.unary (.of main_c) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v7 main_v9 (broadcastInDim S1x128 ![1] bcast_S128_S1x128_1 : (⟨S128, .f32⟩ : BufTy).Contents (Elt F) → (⟨S1x128, .f32⟩ : BufTy).Contents (Elt F)),
    unary main_v9 main_v10 (broadcastInDim S4096x128 ![0, 1] bcast_S1x128_S4096x128_0_1 : (⟨S1x128, .f32⟩ : BufTy).Contents (Elt F) → (⟨S4096x128, .f32⟩ : BufTy).Contents (Elt F)),
    binary main_v4 main_v10 main_v11 (subf : (⟨S4096x128, .f32⟩ : BufTy).Contents (Elt F) → (⟨S4096x128, .f32⟩ : BufTy).Contents (Elt F) → (⟨S4096x128, .f32⟩ : BufTy).Contents (Elt F)),
    nullary main_cst_2 (constant S_ .f32 0x3727C5AC#32),
    unary main_cst_2 main_v12 (broadcastInDim S128 ![] bcast_S_S128 : (⟨S_, .f32⟩ : BufTy).Contents (Elt F) → (⟨S128, .f32⟩ : BufTy).Contents (Elt F)),
    binary main_v8 main_v12 main_v13 (addf : (⟨S128, .f32⟩ : BufTy).Contents (Elt F) → (⟨S128, .f32⟩ : BufTy).Contents (Elt F) → (⟨S128, .f32⟩ : BufTy).Contents (Elt F)),
    unary main_v13 main_v14 (Host.sqrt : (⟨S128, .f32⟩ : BufTy).Contents (Elt F) → (⟨S128, .f32⟩ : BufTy).Contents (Elt F)),
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S4096x128 ![0, 1] bcast_S1x128_S4096x128_0_1 : (⟨S1x128, .f32⟩ : BufTy).Contents (Elt F) → (⟨S4096x128, .f32⟩ : BufTy).Contents (Elt F)),
    binary main_v11 main_v16 main_v17 (Host.divf : (⟨S4096x128, .f32⟩ : BufTy).Contents (Elt F) → (⟨S4096x128, .f32⟩ : BufTy).Contents (Elt F) → (⟨S4096x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S4096x128 ![0, 1] bcast_S1x128_S4096x128_0_1 : (⟨S1x128, .f32⟩ : BufTy).Contents (Elt F) → (⟨S4096x128, .f32⟩ : BufTy).Contents (Elt F)),
    binary main_v17 main_v19 main_v20 (mulf : (⟨S4096x128, .f32⟩ : BufTy).Contents (Elt F) → (⟨S4096x128, .f32⟩ : BufTy).Contents (Elt F) → (⟨S4096x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S4096x128 ![0, 1] bcast_S1x128_S4096x128_0_1 : (⟨S1x128, .f32⟩ : BufTy).Contents (Elt F) → (⟨S4096x128, .f32⟩ : BufTy).Contents (Elt F)),
    binary main_v20 main_v22 main_v23 (addf : (⟨S4096x128, .f32⟩ : BufTy).Contents (Elt F) → (⟨S4096x128, .f32⟩ : BufTy).Contents (Elt F) → (⟨S4096x128, .f32⟩ : BufTy).Contents (Elt F)),
    unary main_arg2 main_v24 ((transpose S128x128 [1, 0] · transposes_S128x128_S128x128_1_0) : (⟨S128x128, .f32⟩ : BufTy).Contents (Elt F) → (⟨S128x128, .f32⟩ : BufTy).Contents (Elt F)),
    binary main_v23 main_v24 main_v25 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg3 main_v26 (broadcastInDim S1x128 ![1] bcast_S128_S1x128_1 : (⟨S128, .f32⟩ : BufTy).Contents (Elt F) → (⟨S1x128, .f32⟩ : BufTy).Contents (Elt F)),
    unary main_v26 main_v27 (broadcastInDim S4096x128 ![0, 1] bcast_S1x128_S4096x128_0_1 : (⟨S1x128, .f32⟩ : BufTy).Contents (Elt F) → (⟨S4096x128, .f32⟩ : BufTy).Contents (Elt F)),
    binary main_v25 main_v27 main_v28 (addf : (⟨S4096x128, .f32⟩ : BufTy).Contents (Elt F) → (⟨S4096x128, .f32⟩ : BufTy).Contents (Elt F) → (⟨S4096x128, .f32⟩ : BufTy).Contents (Elt F)),
    binary main_arg1 main_v28 main_v29 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    nullary main_cst_3 (constant S_ .f32 0x00000000#32),
    unary main_cst_3 main_v30 (broadcastInDim S4096x128 ![] bcast_S_S4096x128 : (⟨S_, .f32⟩ : BufTy).Contents (Elt F) → (⟨S4096x128, .f32⟩ : BufTy).Contents (Elt F)),
    binary main_v29 main_v30 main_v31 (cmpf .oge : (⟨S4096x128, .f32⟩ : BufTy).Contents (Elt F) → (⟨S4096x128, .f32⟩ : BufTy).Contents (Elt F) → (⟨S4096x128, .i1⟩ : BufTy).Contents (Elt F)),
    nullary main_cst_4 (constant S_ .f32 0x3C23D70A#32),
    unary main_cst_4 main_v32 (broadcastInDim S4096x128 ![] bcast_S_S4096x128 : (⟨S_, .f32⟩ : BufTy).Contents (Elt F) → (⟨S4096x128, .f32⟩ : BufTy).Contents (Elt F)),
    binary main_v32 main_v29 main_v33 (mulf : (⟨S4096x128, .f32⟩ : BufTy).Contents (Elt F) → (⟨S4096x128, .f32⟩ : BufTy).Contents (Elt F) → (⟨S4096x128, .f32⟩ : BufTy).Contents (Elt F)),
    TRef.ternary (.of main_v31) (.of main_v29) (.of main_v33) main_call2.v0 select ]

/-- The program is that straight line.  Sequencing grafts what follows onto the end of what precedes, by recursion
    on the first part, so with the called functions unfolded at their calls both sides compute to the same chain of
    single operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes arrays of the program only. -/
theorem ops_sub : (ops : List (HloOp τ sig (Elt F))).Forall fun op => op.bufs ⊆ tcRefs τ sig :=
  ⟨
    binary_bufs_sub .., nullary_bufs_sub .., binary_bufs_sub .., unary_bufs_sub .., unary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub ..⟩

/-! ## The stages

Each stage is a function of whole arrays; the entries are read in the next module. -/

/-- An array of 32-bit floats of shape `s`, over the float values `F`. -/
abbrev Arr (F : FTy → Type) (s : Shape) : Type := (⟨s, .f32⟩ : BufTy).Contents (Elt F)

/-- The scalar zero: the initial value of every sum, and the rectifier's threshold. -/
def zeroScalar : Arr F S_ := constant S_ .f32 0x00000000#32

/-- The scalar 4096, the number of rows. -/
def rowCount : Arr F S_ := constant S_ .f32 0x45800000#32

/-- A vector of 128 column values repeated down the 4096 rows (first as a row, then as the whole array). -/
def downRows (v : Arr F S128) : Arr F S4096x128 :=
  broadcastInDim S4096x128 ![0, 1] bcast_S1x128_S4096x128_0_1 (broadcastInDim S1x128 ![1] bcast_S128_S1x128_1 v)

/-- The Euclidean length of every row, kept as a column: the square root of the sum of the squares along the row. -/
def rowLength (h : Arr F S4096x128) : Arr F S4096x1 :=
  Host.sqrt (broadcastInDim S4096x1 ![0] bcast_S4096_S4096x1_0
    (Host.reduceAdd (mulf h h) zeroScalar reducesTo_S4096x128_S4096_d1 h_S_))

/-- Every row's length, floored at the tiny constant `f32(1e-12)`. -/
def rowLengthFloored (h : Arr F S4096x128) : Arr F S4096x1 :=
  maximumf (rowLength h) (broadcastInDim S4096x1 ![] bcast_S_S4096x1 (constant S_ .f32 0x2B8CBCCC#32))

/-- Every row divided by its floored length. -/
def unitRows (h : Arr F S4096x128) : Arr F S4096x128 :=
  Host.divf h (broadcastInDim S4096x128 ![0, 1] bcast_S4096x1_S4096x128_0_1 (rowLengthFloored h))

/-- The sum of every column over the rows. -/
def colSum (u : Arr F S4096x128) : Arr F S128 :=
  Host.reduceAdd u zeroScalar reducesTo_S4096x128_S128_d0 h_S_

/-- Every column's mean: its sum over the number of rows. -/
def colMean (u : Arr F S4096x128) : Arr F S128 :=
  Host.divf (colSum u) (broadcastInDim S128 ![] bcast_S_S128 rowCount)

/-- The column means as the variance takes them: the sums kept as a row, over the number of rows as a row. -/
def meanRow (u : Arr F S4096x128) : Arr F S1x128 :=
  Host.divf (broadcastInDim S1x128 ![1] bcast_S128_S1x128_1 (colSum u))
    (broadcastInDim S1x128 ![] bcast_S_S1x128 rowCount)

/-- Every entry less its column's mean, inside the variance. -/
def deviation (u : Arr F S4096x128) : Arr F S4096x128 :=
  subf u (broadcastInDim S4096x128 ![0, 1] bcast_S1x128_S4096x128_0_1 (meanRow u))

/-- The squared deviations. -/
def deviationSq (u : Arr F S4096x128) : Arr F S4096x128 := mulf (deviation u) (deviation u)

/-- The correction to the variance's divisor: the integer zero, as a float. -/
def correction : Arr F S_ := sitofp .f32 (constantI S_ 32 0#32)

/-- The variance's divisor: the number of rows less the correction. -/
def divisor : Arr F S_ := subf rowCount correction

/-- The sum of every column's squared deviations over the divisor. -/
def varQuotient (u : Arr F S4096x128) : Arr F S128 :=
  Host.divf (colSum (deviationSq u)) (broadcastInDim S128 ![] bcast_S_S128 divisor)

/-- Whether the divisor is positive: one bit. -/
def divisorPositive : (⟨S_, .i1⟩ : BufTy).Contents (Elt F) := cmpf .ogt (divisor (F := F)) zeroScalar

/-- What the variance is where the divisor is not positive: the word `0x7FC00000` in every column. -/
def undefinedRow : Arr F S128 := broadcastInDim S128 ![] bcast_S_S128 (constant S_ .f32 0x7FC00000#32)

/-- Every column's biased variance: the quotient where the divisor is positive. -/
def colVar (u : Arr F S4096x128) : Arr F S128 :=
  select (broadcastInDim S128 ![] bcast_S_S128 (divisorPositive (F := F))) (varQuotient u) undefinedRow

/-- Every entry less its column's mean. -/
def centred (u : Arr F S4096x128) : Arr F S4096x128 := subf u (downRows (colMean u))

/-- Every column's spread: the square root of its variance plus the epsilon `f32(1e-5)`. -/
def colSpread (u : Arr F S4096x128) : Arr F S128 :=
  Host.sqrt (addf (colVar u) (broadcastInDim S128 ![] bcast_S_S128 (constant S_ .f32 0x3727C5AC#32)))

/-- The centred entries over their column's spread. -/
def standardised (u : Arr F S4096x128) : Arr F S4096x128 := Host.divf (centred u) (downRows (colSpread u))

/-- The affine map column by column: times `g`, plus `be`. -/
def affine (u : Arr F S4096x128) (g be : Arr F S128) : Arr F S4096x128 :=
  addf (mulf (standardised u) (downRows g)) (downRows be)

/-- The linear layer: `x · wᵀ + b`. -/
def linear (x : Arr F S4096x128) (w : Arr F S128x128) (b : Arr F S128) : Arr F S4096x128 :=
  addf (Host.dotGeneral dot_S4096x128_S128x128_S4096x128_1_0_0_1_n_n none x
      (transpose S128x128 [1, 0] w transposes_S128x128_S128x128_1_0))
    (downRows b)

/-- The product with the square matrix on the left: `a · y`. -/
def aggregate (a : Arr F S4096x4096) (y : Arr F S4096x128) : Arr F S4096x128 :=
  Host.dotGeneral dot_S4096x4096_S4096x128_S4096x128_1_0_0_1_n_n none a y

/-- The leaky rectifier entry by entry: `y` where it is at least zero, `f32(0.01) · y` elsewhere. -/
def leaky (y : Arr F S4096x128) : Arr F S4096x128 :=
  select (cmpf .oge y (broadcastInDim S4096x128 ![] bcast_S_S4096x128 zeroScalar)) y
    (mulf (broadcastInDim S4096x128 ![] bcast_S_S4096x128 (constant S_ .f32 0x3C23D70A#32)) y)

/-- The result array as a function of the six argument arrays `H`, `A`, `W`, `b`, `gamma`, `beta`. -/
def result (x0 : Arr F S4096x128) (x1 : Arr F S4096x4096) (x2 : Arr F S128x128) (x3 x4 x5 : Arr F S128) :
    Arr F S4096x128 :=
  leaky (aggregate x1 (linear (affine (unitRows x0) x4 x5) x2 x3))

/-! ## The run -/

/-- The straight line leaves the result array at `result` of what the argument arrays held. -/
theorem result_eq (V : Valuation τ sig (Elt F)) :
    after ops V (main_v34 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument array. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of the
    program terminates with the result array at `result` of the argument arrays' launch contents and the argument
    arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v34)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v34).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«171944_g35983236006066_cont_8to1_b_995_5_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.RefValue.lean ====
/-
  The reference's result array read at one entry.

  Every stage of the result is read at an entry `(r, j)` — a sum along an axis as the sum of the entries, a
  repetition of a scalar, a column or a row as the value repeated, an entrywise operation as the operation on the
  entries, a matrix product as the sum of the products — and the stages are then put together: the entry is the
  graph-convolution layer's value there, in the spelling that divides by the square root of the variance and sums
  the product with the square matrix over all its columns at once.

  Inside the variance the divisor is the number of rows less a correction which is the integer zero: the divisor is
  4096, it is positive, and the choice between the quotient and the undefined value takes the quotient.
-/
import proofs.«171944_g35983236006066_cont_8to1_b_995_5_alg».proof.Proof.RefRun
import proofs.«171944_g35983236006066_cont_8to1_b_995_5_alg».proof.Proof.GcnSpec
import proofs.«171944_g35983236006066_cont_8to1_b_995_5_alg».proof.Proof.LibPlainDot
import Idealize.ShloMosaic.Lib.IdealHost
import Idealize.ShloMosaic.Lib.KernelVsHost
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The constants -/

/-- The binary32 word `0x45800000` is 4096: exponent field 139, twelve above the bias, no fraction. -/
theorem ofBits_rows : Ideal.ofBits .f32 0x45800000#32 = ((4096 : ℝ) : EReal) := by
  simp [Ideal.ofBits, Ideal.ieee, -EReal.coe_mul]
  norm_num

/-- The zero scalar is zero. -/
theorem zeroScalar_apply (i : S_.Idx) : zeroScalar (F := Ideal) i = 0 := Ideal.ofBits_zero_f32

/-- The number of rows, at its one index. -/
theorem rowCount_apply (i : S_.Idx) : rowCount (F := Ideal) i = Cert.Gcn.rows := rfl

/-! ## Repetitions read at an entry -/

/-- A scalar repeated over a shape reads the scalar everywhere. -/
theorem scalar_everywhere {α : Type} {T : Shape} (h : S_.BroadcastsInDim T ![]) (x : S_.Idx → α) (j : T.Idx) :
    broadcastInDim T ![] h x j = x ix0 := broadcastInDim_scalar_apply h x j

/-- A vector of column values kept as a row reads, at `(0, k)`, the vector's entry `k`. -/
theorem asRow_apply (v : Arr Ideal S128) (k : Fin 128) :
    broadcastInDim S1x128 ![1] bcast_S128_S1x128_1 v (ix2 (0 : Fin 1) k) = v (ix1 k) :=
  broadcastInDim_apply ![1] bcast_S128_S1x128_1 v (ix2 (0 : Fin 1) k) (ix1 k) fun a =>
    match a with
    | ⟨0, _⟩ => rfl

/-- A row repeated down the 4096 rows reads, at `(r, k)`, the row's entry `k`. -/
theorem rowDown_apply (y : Arr Ideal S1x128) (r : Fin 4096) (k : Fin 128) :
    broadcastInDim S4096x128 ![0, 1] bcast_S1x128_S4096x128_0_1 y (ix2 r k) = y (ix2 (0 : Fin 1) k) :=
  broadcastInDim_oneRow_apply bcast_S1x128_S4096x128_0_1 y r k

/-- A vector of column values repeated down the rows reads, at `(r, k)`, the vector's entry `k`. -/
theorem downRows_apply (v : Arr Ideal S128) (r : Fin 4096) (k : Fin 128) : downRows v (ix2 r k) = v (ix1 k) :=
  (rowDown_apply _ r k).trans (asRow_apply v k)

/-- A vector of row values kept as a column reads, at `(r, 0)`, the vector's entry `r`. -/
theorem asColumn_apply (v : Arr Ideal S4096) (r : Fin 4096) :
    broadcastInDim S4096x1 ![0] bcast_S4096_S4096x1_0 v (ix2 r (0 : Fin 1)) = v (ix1 r) :=
  broadcastInDim_apply ![0] bcast_S4096_S4096x1_0 v (ix2 r (0 : Fin 1)) (ix1 r) fun a =>
    match a with
    | ⟨0, _⟩ => rfl

/-- A column repeated across the 128 columns reads, at `(r, k)`, the column's entry `r`. -/
theorem columnAcross_apply (c : Arr Ideal S4096x1) (r : Fin 4096) (k : Fin 128) :
    broadcastInDim S4096x128 ![0, 1] bcast_S4096x1_S4096x128_0_1 c (ix2 r k) = c (ix2 r (0 : Fin 1)) :=
  broadcastInDim_apply ![0, 1] bcast_S4096x1_S4096x128_0_1 c (ix2 r k) (ix2 r (0 : Fin 1)) fun a =>
    match a with
    | ⟨0, _⟩ => rfl
    | ⟨1, _⟩ => rfl

/-- The host's square root of an array, at an index: the square root of the entry. -/
theorem hostSqrt_apply {s : Shape} (a : FVec Ideal s .f32) (i : s.Idx) : Host.sqrt a i = Ideal.sqrt (a i) := rfl

/-! ## Sums along an axis -/

/-- The sum along a row from the zero scalar, read at row `r`: the sum of the row's entries. -/
theorem rowSum_apply (x : Arr Ideal S4096x128) (r : Fin 4096) :
    (Host.reduceAdd (F := Ideal) (φ := .f32) x (zeroScalar (F := Ideal)) reducesTo_S4096x128_S4096_d1 h_S_ : Arr Ideal S4096) (ix1 r)
      = ∑ k : Fin 128, x (ix2 r k) := by
  have h : S4096x128.Reduces [1] S4096 := by decide
  rw [hostReduceAdd_apply, Ideal.hostReduceAdd_single reducesTo_S4096x128_S4096_d1 h, zeroScalar_apply, zero_add]
  refine Finset.sum_congr rfl fun k _ => congrArg x (funext fun ax => Fin.ext ?_)
  match ax with
  | ⟨0, _⟩ => rfl
  | ⟨1, _⟩ => rfl

/-- The sum of a column over the rows, read at column `k`: the sum of the column's entries. -/
theorem colSum_apply (u : Arr Ideal S4096x128) (k : Fin 128) : colSum u (ix1 k) = ∑ r : Fin 4096, u (ix2 r k) := by
  have h : S4096x128.Reduces [0] S128 := by decide
  unfold colSum
  rw [hostReduceAdd_apply, Ideal.hostReduceAdd_single reducesTo_S4096x128_S128_d0 h, zeroScalar_apply, zero_add]
  refine Finset.sum_congr rfl fun r _ => congrArg u (funext fun ax => Fin.ext ?_)
  match ax with
  | ⟨0, _⟩ => rfl
  | ⟨1, _⟩ => rfl

/-! ## Matrix products at an entry -/

/-- The product with the square matrix at `(r, j)`: the sum over its 4096 columns. -/
theorem aggregate_apply (a : Arr Ideal S4096x4096) (y : Arr Ideal S4096x128) (r : Fin 4096) (j : Fin 128) :
    aggregate a y (ix2 r j) = ∑ k : Fin 4096, a (ix2 r k) * y (ix2 k j) :=
  PlainDot.dotGeneral_apply_entry none .single a y r j

/-- The linear layer at `(r, j)`: row `r` of `x` against row `j` of `w`, plus `b` at `j`. -/
theorem linear_apply (x : Arr Ideal S4096x128) (w : Arr Ideal S128x128) (b : Arr Ideal S128) (r : Fin 4096) (j : Fin 128) :
    linear x w b (ix2 r j) = (∑ k : Fin 128, x (ix2 r k) * w (ix2 j k)) + b (ix1 j) := by
  unfold linear
  rw [addf_apply, downRows_apply]
  refine congrArg (· + b (ix1 j)) ?_
  refine (PlainDot.dotGeneral_apply_entry none .single x _ r j).trans ?_
  exact Finset.sum_congr rfl fun k _ => by rw [transpose_ix2_apply]

/-! ## The stages at an entry -/

/-- A row's length, read in its column. -/
theorem rowLength_apply (h : Arr Ideal S4096x128) (r : Fin 4096) :
    rowLength h (ix2 r (0 : Fin 1)) = Ideal.sqrt (∑ k : Fin 128, h (ix2 r k) * h (ix2 r k)) := by
  unfold rowLength
  rw [hostSqrt_apply, asColumn_apply, rowSum_apply]
  rfl

/-- An entry of the rows scaled to unit length. -/
theorem unitRows_apply (h : Arr Ideal S4096x128) (r : Fin 4096) (k : Fin 128) :
    unitRows h (ix2 r k) = Cert.Gcn.unitRow (Cert.Gcn.cur2 h) r k := by
  unfold unitRows rowLengthFloored Cert.Gcn.unitRow
  rw [hostDivf_apply, columnAcross_apply, maximumf_apply, rowLength_apply, scalar_everywhere]
  rfl

/-- A column's mean, over any array. -/
theorem colMean_apply (u : Arr Ideal S4096x128) (k : Fin 128) :
    colMean u (ix1 k) = Ideal.div (∑ r : Fin 4096, u (ix2 r k)) Cert.Gcn.rows := by
  unfold colMean
  rw [hostDivf_apply, colSum_apply, scalar_everywhere]
  rfl

/-- The same mean as the variance takes it, kept as a row. -/
theorem meanRow_apply (u : Arr Ideal S4096x128) (k : Fin 128) :
    meanRow u (ix2 (0 : Fin 1) k) = Ideal.div (∑ r : Fin 4096, u (ix2 r k)) Cert.Gcn.rows := by
  unfold meanRow
  rw [hostDivf_apply, asRow_apply, colSum_apply, scalar_everywhere]
  rfl

/-- The unit rows' column mean. -/
theorem colMean_unit (h : Arr Ideal S4096x128) (k : Fin 128) :
    colMean (unitRows h) (ix1 k) = Cert.Gcn.colMean (Cert.Gcn.cur2 h) k := by
  rw [colMean_apply]
  exact congrArg (fun s => Ideal.div s Cert.Gcn.rows) (Finset.sum_congr rfl fun r _ => unitRows_apply h r k)

/-- The same, inside the variance. -/
theorem meanRow_unit (h : Arr Ideal S4096x128) (k : Fin 128) :
    meanRow (unitRows h) (ix2 (0 : Fin 1) k) = Cert.Gcn.colMean (Cert.Gcn.cur2 h) k := by
  rw [meanRow_apply]
  exact congrArg (fun s => Ideal.div s Cert.Gcn.rows) (Finset.sum_congr rfl fun r _ => unitRows_apply h r k)

/-- A centred entry. -/
theorem centred_unit (h : Arr Ideal S4096x128) (r : Fin 4096) (k : Fin 128) :
    centred (unitRows h) (ix2 r k) = Cert.Gcn.centred (Cert.Gcn.cur2 h) r k := by
  unfold centred
  rw [subf_apply, downRows_apply, colMean_unit, unitRows_apply]
  rfl

/-- The variance's own centred entry is the same. -/
theorem deviation_unit (h : Arr Ideal S4096x128) (r : Fin 4096) (k : Fin 128) :
    deviation (unitRows h) (ix2 r k) = Cert.Gcn.centred (Cert.Gcn.cur2 h) r k := by
  unfold deviation
  rw [subf_apply, rowDown_apply, meanRow_unit, unitRows_apply]
  rfl

/-- The variance's divisor: 4096 less the integer zero. -/
theorem divisor_apply (i : S_.Idx) : divisor (F := Ideal) i = Cert.Gcn.rows := by
  show Cert.Gcn.rows - ((((0#32 : BitVec 32).toInt : ℤ) : ℝ) : EReal) = Cert.Gcn.rows
  simp

/-- The divisor is positive: the comparison's bit is one. -/
theorem divisorPositive_apply (i : S_.Idx) : divisorPositive (F := Ideal) i = 1#1 := by
  show Ideal.cmp .ogt (divisor (F := Ideal) i) (zeroScalar (F := Ideal) i) = 1#1
  rw [divisor_apply, zeroScalar_apply]
  have hpos : (0 : EReal) < Cert.Gcn.rows := by
    rw [show Cert.Gcn.rows = ((4096 : ℝ) : EReal) from ofBits_rows]
    exact_mod_cast (by norm_num : (0 : ℝ) < 4096)
  simp [Ideal.cmp, hpos]

/-- A column's variance: the choice takes the quotient. -/
theorem colVar_unit (h : Arr Ideal S4096x128) (k : Fin 128) :
    colVar (unitRows h) (ix1 k) = Cert.Gcn.colVar (Cert.Gcn.cur2 h) k := by
  unfold colVar
  rw [select_apply, scalar_everywhere, divisorPositive_apply, select_one]
  unfold varQuotient
  rw [hostDivf_apply, colSum_apply, scalar_everywhere, divisor_apply]
  refine congrArg (fun s => Ideal.div s Cert.Gcn.rows) (Finset.sum_congr rfl fun r _ => ?_)
  show deviation (unitRows h) (ix2 r k) * deviation (unitRows h) (ix2 r k) = _
  rw [deviation_unit]

/-- A normalised entry after the affine map. -/
theorem affine_unit (h : Arr Ideal S4096x128) (g be : Arr Ideal S128) (r : Fin 4096) (k : Fin 128) :
    affine (unitRows h) g be (ix2 r k)
      = Cert.Gcn.normDiv (Cert.Gcn.cur2 h) (Cert.Gcn.cur1 g) (Cert.Gcn.cur1 be) r k := by
  unfold affine standardised colSpread
  rw [addf_apply, mulf_apply, hostDivf_apply, downRows_apply, downRows_apply, downRows_apply, centred_unit,
    hostSqrt_apply, addf_apply, colVar_unit, scalar_everywhere]
  rfl

/-- The rectifier at an entry. -/
theorem leaky_apply (y : Arr Ideal S4096x128) (r : Fin 4096) (j : Fin 128) :
    leaky y (ix2 r j) = Cert.Gcn.leaky (y (ix2 r j)) := by
  unfold leaky Cert.Gcn.leaky
  rw [select_apply, cmpf_apply, mulf_apply, scalar_everywhere, scalar_everywhere]
  rfl

/-! ## The result at an entry -/

/-- **The reference's result at `(r, j)`** is the layer's value there, dividing by the square root and summing the
    product with the square matrix over all its columns at once. -/
theorem result_apply (x0 : Arr Ideal S4096x128) (x1 : Arr Ideal S4096x4096) (x2 : Arr Ideal S128x128)
    (x3 x4 x5 : Arr Ideal S128) (r : Fin 4096) (j : Fin 128) :
    result x0 x1 x2 x3 x4 x5 (ix2 r j)
      = Cert.Gcn.outWhole (Cert.Gcn.cur2 x0) (Cert.Gcn.cur2 x1) (Cert.Gcn.cur2 x2) (Cert.Gcn.cur1 x3)
          (Cert.Gcn.cur1 x4) (Cert.Gcn.cur1 x5) r j := by
  unfold result Cert.Gcn.outWhole
  rw [leaky_apply, aggregate_apply]
  refine congrArg Cert.Gcn.leaky (Finset.sum_congr rfl fun k _ => ?_)
  rw [linear_apply]
  unfold Cert.Gcn.linear
  refine congrArg (fun t => x1 (ix2 r k) * (t + x3 (ix1 j))) (Finset.sum_congr rfl fun c _ => ?_)
  rw [affine_unit]

end Cert.ReferenceIdeal.RefValue

end
-- ==== Proof.KernelBody.lean ====
/-
  The kernel body at a symbolic grid point.

  The grid has 8 points; point `i` handles rows `512 i … 512 i + 511` of the result.  At the first point the body
  computes the whole linear-layer output (all 4096 rows) from the staged blocks of `H`, `W`, `b`, `gamma`, `beta` and
  stores it in its scratch buffer; at every point it multiplies the two staged half-row blocks of `A` (512 rows, columns
  0–2047 and 2048–4095) with rows 0–2047 and 2048–4095 of the scratch, adds the two products, applies the leaky rectifier
  and stores the 512 × 128 block into the result's staging buffer.

  Two runs are stated, each at any point of its kind: at the first point the scratch may hold anything beforehand and ends
  at `linv` of the input blocks; at a later point it holds some contents `s` and keeps them.  In both the result's staging
  buffer ends at `outv` of the two blocks of `A` and the scratch contents after the run.  Each is what the stores leave,
  read as the canonical contents of the list of stored pieces.
-/
import proofs.«171944_g35983236006066_cont_8to1_b_995_5_alg».proof.Proof.Gen.KernelIdeal
import proofs.«171944_g35983236006066_cont_8to1_b_995_5_alg».proof.Proof.Gen.KernelIdeal.Skeleton
import proofs.«171944_g35983236006066_cont_8to1_b_995_5_alg».proof.Proof.Gen.KernelIdeal.Launch
import proofs.«171944_g35983236006066_cont_8to1_b_995_5_alg».proof.Proof.Gen.KernelIdeal.Points
import Idealize.ShloMosaic.Lib.Writes
import Idealize.ShloMosaic.Lib.Pipeline.FrameBody
import Idealize.ShloMosaic.Lib.Tactic

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffer, whole: 4096 × 128. -/
abbrev scrM : Memref sig .tc .vmem S4096x128 .f32 := Memref.whole cc0_scratch0

/-- The rectangles the body reads and writes through: each buffer whole, and the scratch's upper and lower halves. -/
abbrev rS : Rect S4096x128 := Rect.unit (s := S4096x128) ![0, 0] S4096x128.size inb_S4096x128_S4096x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0
abbrev rA : Rect S512x2048 := Rect.unit (s := S512x2048) ![0, 0] S512x2048.size inb_S512x2048_S512x2048_0_0
abbrev rO : Rect S512x128 := Rect.unit (s := S512x128) ![0, 0] S512x128.size inb_S512x128_S512x128_0_0
abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0

/-- "This is the first grid point", as the body computes it from the point's coordinate. -/
abbrev IsFirst (t : Fin cfg0.N) : Prop :=
  Scalar.cmpi .ne (Scalar.extui (Scalar.cmpi .eq (BitVec.ofNat 32 ((grid0.coords t) 0).val) 0#32)) 0#32 = 1#1

/-- The scratch after the first point: the linear layer's output of the blocks of `H`, `W`, `b`, `gamma`, `beta`. -/
abbrev linv (x0 : Vec F S4096x128 .f32) (x1 : Vec F S128x128 .f32) (x2 x3 x4 : Vec F S1x128 .f32) : Vec F S4096x128 .f32 :=
  View.canon [⟨rS, k0_pay1 (k0_pay3 (View.ld x0 rS) (View.ld x3 rRow) (View.ld x4 rRow) (View.ld x1 rW) (View.ld x2 rRow))⟩]

/-- The block a point stores: the rectified sum of the two half products, from the blocks of `A` and the scratch `s`. -/
abbrev outv (x5 x6 : Vec F S512x2048 .f32) (s : Vec F S4096x128 .f32) : Vec F S512x128 .f32 :=
  View.canon [⟨rO, k0_pay2 (View.ld x5 rA) (View.ld s rLo) (View.ld x6 rA) (View.ld s rHi)⟩]

/-- A load of the scratch's halves after the stores `L` reads the canonical contents of `L` through the halves. -/
theorem outv_of_readCov (x5 x6 : Vec F S512x2048 .f32) (L : List (View.Piece (Elt F) S4096x128 .f32)) :
    View.canon [(⟨rO, k0_pay2 (View.ld x5 rA) (scrM.view.readCov L rLo.toLoadRect) (View.ld x6 rA) (scrM.view.readCov L rHi.toLoadRect)⟩ : View.Piece (Elt F) S512x128 .f32)]
      = outv x5 x6 (View.canon L) := by
  rw [View.readCov_eq_canon', View.readCov_eq_canon']

section Runs

variable (c : Dev nD) (t : Fin cfg0.N)
  (M0 : Memref sig .tc .vmem S4096x128 .f32) (h0 : M0.IsWhole) (M1 : Memref sig .tc .vmem S128x128 .f32) (h1 : M1.IsWhole)
  (M2 : Memref sig .tc .vmem S1x128 .f32) (h2 : M2.IsWhole) (M3 : Memref sig .tc .vmem S1x128 .f32) (h3 : M3.IsWhole)
  (M4 : Memref sig .tc .vmem S1x128 .f32) (h4 : M4.IsWhole) (M5 : Memref sig .tc .vmem S512x2048 .f32) (h5 : M5.IsWhole)
  (M6 : Memref sig .tc .vmem S512x2048 .f32) (h6 : M6.IsWhole) (M7 : Memref sig .tc .vmem S512x128 .f32) (h7 : M7.IsWhole)
  (x0 : Vec F S4096x128 .f32) (x1 : Vec F S128x128 .f32) (x2 x3 x4 : Vec F S1x128 .f32) (x5 x6 : Vec F S512x2048 .f32)

local notation "KER" => cc0__fused_kernel (grid0.coords t) M0 h0 M1 h1 M2 h2 M3 h3 M4 h4 M5 h5 M6 h6 M7 h7 (Memref.whole cc0_scratch0) (Memref.isWhole_whole _)

/-- The first point: whatever the scratch and the result's buffer held, the scratch ends at `linv` of the input blocks and
    the result's buffer at `outv` over it; the seven input buffers are as they were. -/
theorem run_first (hF : IsFirst t) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ (∃ d, owns (c : Thread nD τ) M7 fullShare d) ∗ (∃ a, owns (c : Thread nD τ) scrM fullShare a)
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare (outv x5 x6 (linv x0 x1 x2 x3 x4))
          ∗ owns (c : Thread nD τ) scrM fullShare (linv x0 x1 x2 x3 x4)) -∗ Q ⟨⟩))
      ⊢ wp frame (wpE (defs₀ (F := F)) Variants.none c none) Set.univ KER Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%a', %fa, %hfa, Ha⟩, Hk⟩
  subst hf0 hf1 hf2 hf3 hf4 hf5 hf6
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7); ipureintro
    exact (View.read_writes_junk_eq_canon _ _).trans
      (outv_of_readCov (M5.view.read (Elt F) f5) (M6.view.read (Elt F) f6)
        [⟨rS, k0_pay1 (k0_pay3 (View.ld (M0.view.read (Elt F) f0) rS) (View.ld (M3.view.read (Elt F) f3) rRow)
          (View.ld (M4.view.read (Elt F) f4) rRow) (View.ld (M1.view.read (Elt F) f1) rW) (View.ld (M2.view.read (Elt F) f2) rRow))⟩])
  iexists _; isplitr; swap; (· iexact Ha); ipureintro
  exact View.read_writes_junk_eq_canon _ _

/-- A later point: the scratch at `s` stays at `s`, and the result's buffer ends at `outv` over it; the seven input
    buffers are as they were. -/
theorem run_later (hF : ¬ IsFirst t) (s : Vec F S4096x128 .f32) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ (∃ d, owns (c : Thread nD τ) M7 fullShare d) ∗ owns (c : Thread nD τ) scrM fullShare s
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare (outv x5 x6 s)
          ∗ owns (c : Thread nD τ) scrM fullShare s) -∗ Q ⟨⟩))
      ⊢ wp frame (wpE (defs₀ (F := F)) Variants.none c none) Set.univ KER Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%fa, %hfa, Ha⟩, Hk⟩
  subst hf0 hf1 hf2 hf3 hf4 hf5 hf6 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7); ipureintro
    exact View.read_writes_junk_eq_canon _ _
  iexists fa; isplitr; (· ipureintro; rfl); iexact Ha

end Runs

end Cert.Proof.KernelIdealRun

end
-- ==== Proof.KernelRun.lean ====
/-
  The kernel's run: every weakly fair execution of the program terminates without a fault, the six argument arrays end as
  they began, and the result array ends at the account of its eight blocks.

  The program reshapes `b`, `gamma`, `beta` to rows and then launches one kernel over a grid of 8 points.  Two of the
  kernel's windows read the SAME array (`A`, its left and right column halves), so the array's ownership is dealt to the
  two windows half and half, and each ends holding it unchanged.  The invariant carried from point to point is the
  scratch buffer: anything before the first point, the linear layer's output of the whole input from then on.  What a
  point leaves in the result's staging buffer is `outv` of that point's two blocks of `A` and this scratch.
-/
import proofs.«171944_g35983236006066_cont_8to1_b_995_5_alg».proof.Proof.KernelBody
import Idealize.ShloMosaic.Lib.Pipeline.Kit
import Idealize.ShloMosaic.Lib.StableHlo.Run

set_option maxRecDepth 16384

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- A core's buffers after the three reshapes, when the kernel is launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the launch: the three reshapes, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the kernel finds each as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch from the first point on: the linear layer's output of the five whole input blocks. -/
def lin0 (c : Dev nD) : Vec F S4096x128 .f32 :=
  linv (iblk m c 0 t0_0) (iblk m c 1 t0_0) (iblk m c 2 t0_0) (iblk m c 3 t0_0) (iblk m c 4 t0_0)

/-- What point `t` leaves in the result's staging buffer. -/
def outAt (c : Dev nD) (t : Fin cfg0.N) : Vec F S512x128 .f32 := outv (iblk m c 5 t) (iblk m c 6 t) (lin0 m c)

/-- The invariant before point `k` (k = 0 … 8): the scratch at anything before the first point, at `lin0` afterwards. -/
def Φs (c : Dev nD) (k : Fin (cfg0.N + 1)) : sProp 𝕄 :=
  if k.val = 0 then iprop(∃ a, owns (c : Thread nD τ) scrM fullShare a) else owns (c : Thread nD τ) scrM fullShare (lin0 m c)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ k := Φs m c k
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
  owed _ := 0

abbrev 𝒱₀ : Variants := Variants.none

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; try rfl)
theorem after_0 (c : Dev nD) (t : Fin cfg0.N) : (dats m 0 c).after 0 t = iblk m c 0 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; try rfl)
theorem after_1 (c : Dev nD) (t : Fin cfg0.N) : (dats m 0 c).after 1 t = iblk m c 1 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; try rfl)
theorem after_2 (c : Dev nD) (t : Fin cfg0.N) : (dats m 0 c).after 2 t = iblk m c 2 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; try rfl)
theorem after_3 (c : Dev nD) (t : Fin cfg0.N) : (dats m 0 c).after 3 t = iblk m c 3 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; try rfl)
theorem after_4 (c : Dev nD) (t : Fin cfg0.N) : (dats m 0 c).after 4 t = iblk m c 4 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; try rfl)
theorem after_5 (c : Dev nD) (t : Fin cfg0.N) : (dats m 0 c).after 5 t = iblk m c 5 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; try rfl) t d).trans
    (by unfold Dat.fetched Dat.blockOf iblk; try rfl)
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- The first point is point 0. -/
theorem isFirst_iff : ∀ t : Fin cfg0.N, IsFirst t ↔ t.val = 0 :=
  (by decide +kernel : ∀ t : Fin grid0.N, (Scalar.cmpi .ne (Scalar.extui (Scalar.cmpi .eq (BitVec.ofNat 32 ((grid0.coords t) 0).val) 0#32)) 0#32 = 1#1) ↔ t.val = 0)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_eq (c : Dev nD) (k : Fin (cfg0.N + 1)) : (dats m 0 c).Φ k = Φs m c k := by dsimp only [dats]
theorem Φ_pre_first (c : Dev nD) (t : Fin cfg0.N) (h : t.val = 0) :
    (dats m 0 c).Φ t.castSucc = iprop(∃ a, owns (c : Thread nD τ) scrM fullShare a) := by
  rw [Φ_eq]; unfold Φs; rw [if_pos (by exact h)]
theorem Φ_pre_later (c : Dev nD) (t : Fin cfg0.N) (h : t.val ≠ 0) :
    (dats m 0 c).Φ t.castSucc = owns (c : Thread nD τ) scrM fullShare (lin0 m c) := by
  rw [Φ_eq]; unfold Φs; rw [if_neg (by exact h)]
theorem Φ_post (c : Dev nD) (t : Fin cfg0.N) :
    (dats m 0 c).Φ t.succ = owns (c : Thread nD τ) scrM fullShare (lin0 m c) := by
  rw [Φ_eq]; unfold Φs; rw [if_neg (by show ¬ (t.val + 1 = 0); omega)]

/-- The body obligation at every point: the run of the point's kind between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, before_5, before_6, after_0, after_1, after_2, after_3, after_4, after_5, after_6, after_7]
  rw [Φ_post m c t]
  by_cases hF : IsFirst t
  · have h0 : t.val = 0 := (isFirst_iff t).mp hF
    obtain rfl : t = t0_0 := Fin.ext h0
    rw [Φ_pre_first m c t0_0 h0]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c t0_0 (st0_0 t0_0) (hstage0_0 ((cfg0.slots t0_0 0).cast nbuf0_0)) (st0_1 t0_0) (hstage0_1 ((cfg0.slots t0_0 1).cast nbuf0_1))
      (st0_2 t0_0) (hstage0_2 ((cfg0.slots t0_0 2).cast nbuf0_2)) (st0_3 t0_0) (hstage0_3 ((cfg0.slots t0_0 3).cast nbuf0_3))
      (st0_4 t0_0) (hstage0_4 ((cfg0.slots t0_0 4).cast nbuf0_4)) (st0_5 t0_0) (hstage0_5 ((cfg0.slots t0_0 5).cast nbuf0_5))
      (st0_6 t0_0) (hstage0_6 ((cfg0.slots t0_0 6).cast nbuf0_6)) (st0_7 t0_0) (hstage0_7 ((cfg0.slots t0_0 7).cast nbuf0_7))
      (iblk m c 0 t0_0) (iblk m c 1 t0_0) (iblk m c 2 t0_0) (iblk m c 3 t0_0) (iblk m c 4 t0_0) (iblk m c 5 t0_0) (iblk m c 6 t0_0) hF)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [Ha]; · iexact Ha
    iintro ⟨H0, H1, H2, H3, H4, H5, H6, H7, Ha⟩
    isplitl [Ha]; · iexact Ha
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h0 : t.val ≠ 0 := fun h => hF ((isFirst_iff t).mpr h)
    rw [Φ_pre_later m c t h0]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) (iblk m c 4 t) (iblk m c 5 t) (iblk m c 6 t) hF (lin0 m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [Ha]; · iexact Ha
    iintro ⟨H0, H1, H2, H3, H4, H5, H6, H7, Ha⟩
    isplitl [Ha]; · iexact Ha
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The launch -/

/-- The windows' arrays, each held through its whole buffer. -/
theorem arrays_eq (c : Dev nD) (G : (w : Fin cfg0.W) → Buf (Elt F) ((cfg0.win w).arr.view.loc (c : Thread nD τ))) :
    (dats m 0 c).arrays G
      = bigSep Finset.univ fun w : Fin 8 => ((((c : Thread nD τ).loc (Pipeline.arrRef spec0 w)) ↦{(dats m 0 c).share w} G w) : sProp 𝕄) := by
  unfold Dat.arrays
  exact bigSep_congr fun w _ => by rw [(arr_whole0 w).set_eq_univ]

theorem arr_0 (c : Dev nD) :
    ((((c : Thread nD τ).loc (Pipeline.arrRef spec0 0)) ↦{(dats m 0 c).share 0} (dats m 0 c).arrAt 0 0) : sProp 𝕄)
      = (((c : Thread nD τ).loc main_arg0) ↦{fullShare} V m c main_arg0) := rfl
theorem arr_1 (c : Dev nD) :
    ((((c : Thread nD τ).loc (Pipeline.arrRef spec0 1)) ↦{(dats m 0 c).share 1} (dats m 0 c).arrAt 1 0) : sProp 𝕄)
      = (((c : Thread nD τ).loc main_arg2) ↦{fullShare} V m c main_arg2) := rfl
theorem arr_2 (c : Dev nD) :
    ((((c : Thread nD τ).loc (Pipeline.arrRef spec0 2)) ↦{(dats m 0 c).share 2} (dats m 0 c).arrAt 2 0) : sProp 𝕄)
      = (((c : Thread nD τ).loc main_v0) ↦{fullShare} V m c main_v0) := rfl
theorem arr_3 (c : Dev nD) :
    ((((c : Thread nD τ).loc (Pipeline.arrRef spec0 3)) ↦{(dats m 0 c).share 3} (dats m 0 c).arrAt 3 0) : sProp 𝕄)
      = (((c : Thread nD τ).loc main_v1) ↦{fullShare} V m c main_v1) := rfl
theorem arr_4 (c : Dev nD) :
    ((((c : Thread nD τ).loc (Pipeline.arrRef spec0 4)) ↦{(dats m 0 c).share 4} (dats m 0 c).arrAt 4 0) : sProp 𝕄)
      = (((c : Thread nD τ).loc main_v2) ↦{fullShare} V m c main_v2) := rfl
theorem arr_5 (c : Dev nD) :
    ((((c : Thread nD τ).loc (Pipeline.arrRef spec0 5)) ↦{(dats m 0 c).share 5} (dats m 0 c).arrAt 5 0) : sProp 𝕄)
      = (((c : Thread nD τ).loc main_arg1) ↦{fullShare.left} V m c main_arg1) := rfl
theorem arr_6 (c : Dev nD) :
    ((((c : Thread nD τ).loc (Pipeline.arrRef spec0 6)) ↦{(dats m 0 c).share 6} (dats m 0 c).arrAt 6 0) : sProp 𝕄)
      = (((c : Thread nD τ).loc main_arg1) ↦{fullShare.right} V m c main_arg1) := rfl
theorem arr_7 (c : Dev nD) :
    ((((c : Thread nD τ).loc (Pipeline.arrRef spec0 7)) ↦{(dats m 0 c).share 7} (dats m 0 c).arrAt 7 0) : sProp 𝕄)
      = (((c : Thread nD τ).loc main_v3) ↦{fullShare} V m c main_v3) := rfl

/-- The seven buffers behind the eight windows' arrays make the proof data's arrays at entry: `A`'s buffer is dealt to
    its two windows half and half, every other buffer goes whole to its one window. -/
theorem arrBufs_eq (c : Dev nD) :
    (Pipeline.arrBufs spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_v0) ↦{fullShare} V m c main_v0) ∗ (((c : Thread nD τ).loc main_v1) ↦{fullShare} V m c main_v1)
          ∗ (((c : Thread nD τ).loc main_v2) ↦{fullShare} V m c main_v2) ∗ (((c : Thread nD τ).loc main_arg1) ↦{fullShare} V m c main_arg1)
          ∗ (((c : Thread nD τ).loc main_v3) ↦{fullShare} V m c main_v3)) :=
  bigSep_eq_bigSepL_of_eq [main_arg0, main_arg2, main_v0, main_v1, main_v2, main_arg1, main_v3] (by decide) (by decide) _

/-- `A`'s buffer held whole is the two halves of its ownership, each at the same contents. -/
theorem halve (c : Dev nD) :
    ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
  (pointsTo_share (PosShare.mem_left_op_right fullShare)).1

theorem hsplit (c : Dev nD) : (Pipeline.arrBufs spec0 c (V m c) : sProp 𝕄) ⊢ (dats m 0 c).arrays ((dats m 0 c).arrAt · 0) := by
  rw [arrays_eq m c, bigSep_W0, arr_0 m c, arr_1 m c, arr_2 m c, arr_3 m c, arr_4 m c, arr_5 m c, arr_6 m c, arr_7 m c]
  rw [arrBufs_eq m c]
  iintro ⟨H0, H2, Hv0, Hv1, Hv2, H1, Hv3⟩
  ihave H1' := (halve m c) $$ H1
  icases H1' with ⟨H1l, H1r⟩
  isplitl [H0]; · iexact H0
  isplitl [H2]; · iexact H2
  isplitl [Hv0]; · iexact Hv0
  isplitl [Hv1]; · iexact Hv1
  isplitl [Hv2]; · iexact Hv2
  isplitl [H1l]; · iexact H1l
  isplitl [H1r]; · iexact H1r
  iexact Hv3

/-- Before the first point the scratch, the one buffer of the kernel's own, holds anything. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest0_eq, Φ_eq]
  unfold Φs; rw [if_pos (show ((0 : Fin (cfg0.N + 1)).val = 0) from rfl)]
  iintro ⟨-, ⟨%f, Hf⟩⟩
  iexists f; rw [owns_whole]; iexact Hf

/-- After the last point it is given back, its contents forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [scopedRest0_eq, Φ_eq]
  unfold Φs; rw [if_neg (show ¬ ((Fin.last cfg0.N).val = 0) from by have h : cfg0.N = 8 := N_0; show ¬ (cfg0.N = 0); omega), owns_whole]
  iintro Hf
  isplitr; · iempintro
  iexists _; iexact Hf

/-- What the run ends with: every window's array at the account of its blocks, every other argument buffer as the
    kernel found it. -/
def Post (r : PUnit × MemSt nD τ sig (Elt F)) : Prop :=
  ∀ c : Dev nD, (∀ w, r.2.mem ((cfg0.spec w).arr.view.loc (c.tc : Thread nD τ)) = (dats m 0 c).arrAt w cfg0.N)
    ∧ (∀ b ∈ Pipeline.restRefs sig spec0, r.2.mem ((c.tc : Thread nD τ).loc b) = V m c b)

set_option backward.isDefEq.respectTransparency.types false in
/-- Every weakly fair execution of the program terminates without a fault, in a state satisfying `Post`. -/
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m 𝒱₀) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; (· iempintro); iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h => h)

/-- The run with the result named: the result array ends at the account of its eight blocks, the six argument arrays as
    they began. -/
theorem run_result : θ_run defs (onTc (τ := τ) (main (F := F))) ⟨m, fun _ => 0, ρ⟩ (fun r => ∀ c : Dev nD,
      r.2.mem ((c.tc : Thread nD τ).loc main_v3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 7,
     ((h c).1 0).trans (((dats m 0 c).arrAt_in 0 rfl _).trans (V_main_arg0 m c)),
     ((h c).1 5).trans (((dats m 0 c).arrAt_in 5 rfl _).trans (V_main_arg1 m c)),
     ((h c).1 1).trans (((dats m 0 c).arrAt_in 1 rfl _).trans (V_main_arg2 m c)),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

/-- The frame: the program runs to the end and its six argument arrays end as they began — `H`, `A`, `W` read back through
    a window that stages them and never writes, `b`, `gamma`, `beta` left aside by the kernel. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (V_main_arg0 m c)),
     ((h c).1 5).trans (((dats m 0 c).arrAt_in 5 rfl _).trans (V_main_arg1 m c)),
     ((h c).1 1).trans (((dats m 0 c).arrAt_in 1 rfl _).trans (V_main_arg2 m c)),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

end Cert.Proof.KernelIdealRun

end
-- ==== Proof.KernelBlocks.lean ====
/-
  Where the blocks of the kernel's eight windows sit in their arrays: pure index arithmetic.

  The grid has eight points `t = 0 … 7`.  The five small operands are moved whole, once: their block is the array.
  The 4096 × 4096 matrix is read through two windows of 512 × 2048 blocks: at point `t` the first holds rows
  `512 t … 512 t + 511` of columns `0 … 2047`, the second the same rows of columns `2048 … 4095`.  The 4096 × 128 result
  is written through 512 × 128 blocks: point `t` writes rows `512 t … 512 t + 511`.  A block's coordinate on an axis is
  always (block index) × (block size) + (coordinate inside the block); the block indices are decided once over the grid.
  The eight result blocks tile the result: row `r` is row `r % 512` of the block of point `r / 512`.
-/
import proofs.«171944_g35983236006066_cont_8to1_b_995_5_alg».proof.Proof.Gen.KernelIdeal.Points
import proofs.«171944_g35983236006066_cont_8to1_b_995_5_alg».proof.Proof.Gen.KernelIdeal.Launch
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-! ### The grid -/

/-- A grid point is below 8. -/
theorem point_lt (t : Fin cfg0.N) : t.val < 8 := by
  exact lt_of_lt_of_eq t.isLt N_0

/-- Row `p` of the block of point `t` is row `512 t + p` of the array. -/
theorem row_lt (t : Fin cfg0.N) (p : Fin 512) : 512 * t.val + p.val < 4096 := by
  have := point_lt t; have := p.isLt; omega

/-- Row `p` of the block of point `t`, as a row of the array. -/
abbrev rowOf (t : Fin cfg0.N) (p : Fin 512) : Fin 4096 := ⟨512 * t.val + p.val, row_lt t p⟩

/-- Column `k` of the left half, as a column of the whole matrix. -/
abbrev colLo (k : Fin 2048) : Fin 4096 := ⟨k.val, by have := k.isLt; omega⟩
/-- Column `k` of the right half, as a column of the whole matrix. -/
abbrev colHi (k : Fin 2048) : Fin 4096 := ⟨2048 + k.val, by have := k.isLt; omega⟩

/-! ### The block indices, decided over the grid -/

/-- The five whole-array windows sit at block (0, 0) at every point. -/
theorem index_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The left half of the matrix: block (t, 0) at point `t`. -/
theorem index5 : ∀ t : Fin cfg0.N, win0_5.index t (0 : Fin 2) = t.val ∧ win0_5.index t (1 : Fin 2) = 0 :=
  (by decide +kernel : ∀ t : Fin grid0.N, _)

/-- The right half of the matrix: block (t, 1) at point `t`. -/
theorem index6 : ∀ t : Fin cfg0.N, win0_6.index t (0 : Fin 2) = t.val ∧ win0_6.index t (1 : Fin 2) = 1 :=
  (by decide +kernel : ∀ t : Fin grid0.N, _)

/-- The result: block (t, 0) at point `t`. -/
theorem index7 : ∀ t : Fin cfg0.N, win0_7.index t (0 : Fin 2) = t.val ∧ win0_7.index t (1 : Fin 2) = 0 :=
  (by decide +kernel : ∀ t : Fin grid0.N, _)

/-! ### Where a block's entry sits in its array -/

/-- The result's block at point `t`: entry `(p, j)` is entry `(512 t + p, j)` of the result. -/
theorem emb7 (t : Fin cfg0.N) (p : Fin 512) (j : Fin 128) :
    ((cfg0.win 7).blk t).view.emb (ix2 p j) = ix2 (rowOf t p) j := by
  obtain ⟨e0, e1⟩ := index7 t
  funext a; apply Fin.ext
  match a with
  | ⟨0, _⟩ => show win0_7.index t (0 : Fin 2) * 512 + 1 * p.val = 512 * t.val + p.val; omega
  | ⟨1, _⟩ => show win0_7.index t (1 : Fin 2) * 128 + 1 * j.val = j.val; omega

/-- The left half's block at point `t`: entry `(p, k)` is entry `(512 t + p, k)` of the matrix. -/
theorem emb5 (t : Fin cfg0.N) (p : Fin 512) (k : Fin 2048) :
    ((cfg0.win 5).blk t).view.emb (ix2 p k) = ix2 (rowOf t p) (colLo k) := by
  obtain ⟨e0, e1⟩ := index5 t
  funext a; apply Fin.ext
  match a with
  | ⟨0, _⟩ => show win0_5.index t (0 : Fin 2) * 512 + 1 * p.val = 512 * t.val + p.val; omega
  | ⟨1, _⟩ => show win0_5.index t (1 : Fin 2) * 2048 + 1 * k.val = k.val; omega

/-- The right half's block at point `t`: entry `(p, k)` is entry `(512 t + p, 2048 + k)` of the matrix. -/
theorem emb6 (t : Fin cfg0.N) (p : Fin 512) (k : Fin 2048) :
    ((cfg0.win 6).blk t).view.emb (ix2 p k) = ix2 (rowOf t p) (colHi k) := by
  obtain ⟨e0, e1⟩ := index6 t
  funext a; apply Fin.ext
  match a with
  | ⟨0, _⟩ => show win0_6.index t (0 : Fin 2) * 512 + 1 * p.val = 512 * t.val + p.val; omega
  | ⟨1, _⟩ => show win0_6.index t (1 : Fin 2) * 2048 + 1 * k.val = 2048 + k.val; omega

/-- The block of a whole-array window is the array: an entry sits where it is. -/
theorem emb0 (t : Fin cfg0.N) (y : S4096x128.Idx) : ((cfg0.win 0).blk t).view.emb y = y := by
  obtain ⟨e00, e01, -⟩ := index_whole t
  funext a; apply Fin.ext
  match a with
  | ⟨0, _⟩ => show win0_0.index t (0 : Fin 2) * 4096 + 1 * (y 0).val = (y 0).val; omega
  | ⟨1, _⟩ => show win0_0.index t (1 : Fin 2) * 128 + 1 * (y 1).val = (y 1).val; omega

theorem emb1 (t : Fin cfg0.N) (y : S128x128.Idx) : ((cfg0.win 1).blk t).view.emb y = y := by
  obtain ⟨-, -, e10, e11, -⟩ := index_whole t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem emb2 (t : Fin cfg0.N) (y : S1x128.Idx) : ((cfg0.win 2).blk t).view.emb y = y := by
  obtain ⟨-, -, -, -, e20, e21, -⟩ := index_whole t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem emb3 (t : Fin cfg0.N) (y : S1x128.Idx) : ((cfg0.win 3).blk t).view.emb y = y := by
  obtain ⟨-, -, -, -, -, -, e30, e31, -⟩ := index_whole t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem emb4 (t : Fin cfg0.N) (y : S1x128.Idx) : ((cfg0.win 4).blk t).view.emb y = y := by
  obtain ⟨-, -, -, -, -, -, -, -, e40, e41⟩ := index_whole t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ### The result's blocks tile the result -/

/-- An index of the result is in point `t`'s block iff each coordinate is in the block's range on its axis. -/
theorem mem_blk7 (t : Fin cfg0.N) (i : S4096x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v3).slice (win0_7.rect t)).set ↔ _
  rw [View.set_slice_whole, Rect.mem_set_unit]
  exact Iff.rfl

/-- … that is, iff its row is one of the block's 512 rows (every column is in range). -/
theorem mem_blk7_iff (t : Fin cfg0.N) (i : S4096x128.Idx) :
    i ∈ ((cfg0.win 7).blk t).view.set ↔ 512 * t.val ≤ (i 0).val ∧ (i 0).val < 512 * t.val + 512 := by
  rw [mem_blk7]
  obtain ⟨e0, e1⟩ := index7 t
  constructor
  · intro h
    have b0 : win0_7.index t (0 : Fin 2) * 512 ≤ (i 0).val ∧ (i 0).val < win0_7.index t (0 : Fin 2) * 512 + 512 := h 0
    omega
  · intro h a
    have h1 : (i 1).val < 128 := (i 1).isLt
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 128 ≤ (i 1).val ∧ (i 1).val < win0_7.index t (1 : Fin 2) * 128 + 128; omega

/-- The point whose block holds row `r`: `r / 512`. -/
abbrev pointOf (r : Fin 4096) : Fin cfg0.N :=
  ⟨r.val / 512, lt_of_lt_of_eq (by have := r.isLt; omega : r.val / 512 < 8) N_0.symm⟩

/-- Row `r` inside its block: `r % 512`. -/
abbrev rowIn (r : Fin 4096) : Fin 512 := ⟨r.val % 512, Nat.mod_lt _ (by decide)⟩

/-- Row `r` is row `r % 512` of the block of point `r / 512`. -/
theorem rowOf_pointOf (r : Fin 4096) : rowOf (pointOf r) (rowIn r) = r :=
  Fin.ext (by show 512 * (r.val / 512) + r.val % 512 = r.val; omega)

/-- Entry `(r, j)` of the result is entry `(r % 512, j)` of the block of point `r / 512`. -/
theorem ix2_eq_emb7 (r : Fin 4096) (j : Fin 128) :
    ix2 r j = ((cfg0.win 7).blk (pointOf r)).view.emb (ix2 (rowIn r) j) := by
  rw [emb7, rowOf_pointOf]

/-- Entry `(r, j)` of the result is in the block of point `r / 512`. -/
theorem ix2_mem_blk7 (r : Fin 4096) (j : Fin 128) :
    (ix2 r j : S4096x128.Idx) ∈ ((cfg0.win 7).blk (pointOf r)).view.set := by
  rw [mem_blk7_iff]
  show 512 * (r.val / 512) ≤ r.val ∧ r.val < 512 * (r.val / 512) + 512
  omega

/-- Every index of the result is in the block of a point that writes its block back. -/
theorem cover7 (i : S4096x128.Idx) :
    ∃ t : Fin cfg0.N, (cfg0.win 7).flush t = true ∧ i ∈ ((cfg0.win 7).blk t).view.set := by
  refine ⟨pointOf (i 0), flush0_7 _, ?_⟩
  rw [mem_blk7_iff]
  have hi0 : (i 0).val < 4096 := (i 0).isLt
  show 512 * ((i 0).val / 512) ≤ (i 0).val ∧ (i 0).val < 512 * ((i 0).val / 512) + 512
  omega

/-! ### A block read at an entry

  Reading an array through a block's rectangle, at an entry of the block, is the array at the entry's place. -/

section Reads
variable {Val : EltTy → Type}

/-- The result's block at point `t`, read at `(p, j)`. -/
theorem read7_apply (t : Fin cfg0.N) (G : S4096x128.Idx → Val .f32) (p : Fin 512) (j : Fin 128) :
    ((cfg0.win 7).blk t).view.read Val G (ix2 p j) = G (ix2 (rowOf t p) j) := by
  show G (((cfg0.win 7).blk t).view.emb (ix2 p j)) = _
  rw [emb7]

/-- The left half's block at point `t`, read at `(p, k)`. -/
theorem read5_apply (t : Fin cfg0.N) (A : S4096x4096.Idx → Val .f32) (p : Fin 512) (k : Fin 2048) :
    ((cfg0.win 5).blk t).view.read Val A (ix2 p k) = A (ix2 (rowOf t p) (colLo k)) := by
  show A (((cfg0.win 5).blk t).view.emb (ix2 p k)) = _
  rw [emb5]

/-- The right half's block at point `t`, read at `(p, k)`. -/
theorem read6_apply (t : Fin cfg0.N) (A : S4096x4096.Idx → Val .f32) (p : Fin 512) (k : Fin 2048) :
    ((cfg0.win 6).blk t).view.read Val A (ix2 p k) = A (ix2 (rowOf t p) (colHi k)) := by
  show A (((cfg0.win 6).blk t).view.emb (ix2 p k)) = _
  rw [emb6]

/-- A whole-array window's block, read, is the array. -/
theorem read0 (t : Fin cfg0.N) (X : S4096x128.Idx → Val .f32) : ((cfg0.win 0).blk t).view.read Val X = X := by
  funext y
  show X (((cfg0.win 0).blk t).view.emb y) = _
  rw [emb0]

theorem read1 (t : Fin cfg0.N) (X : S128x128.Idx → Val .f32) : ((cfg0.win 1).blk t).view.read Val X = X := by
  funext y
  show X (((cfg0.win 1).blk t).view.emb y) = _
  rw [emb1]

theorem read2 (t : Fin cfg0.N) (X : S1x128.Idx → Val .f32) : ((cfg0.win 2).blk t).view.read Val X = X := by
  funext y
  show X (((cfg0.win 2).blk t).view.emb y) = _
  rw [emb2]

theorem read3 (t : Fin cfg0.N) (X : S1x128.Idx → Val .f32) : ((cfg0.win 3).blk t).view.read Val X = X := by
  funext y
  show X (((cfg0.win 3).blk t).view.emb y) = _
  rw [emb3]

theorem read4 (t : Fin cfg0.N) (X : S1x128.Idx → Val .f32) : ((cfg0.win 4).blk t).view.read Val X = X := by
  funext y
  show X (((cfg0.win 4).blk t).view.emb y) = _
  rw [emb4]

end Reads

end Cert.KernelIdeal.Blocks

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.LibGramMatmul.lean ====
/-
  The matrix product against a transposed right operand on the extended reals, read at one entry.

  A matrix unit's product of an `m × k` array by an `n × k` array contracted on the LAST axis of both (rows against
  rows: `A Bᵀ`; with `B = A` the Gram matrix of A's rows), accumulated into the zero array, holds at entry `(a, b)` the
  sum over the contracted position `c` of `A[a,c] · B[b,c]`. The contraction's index set has one axis; it is re-indexed
  by its one coordinate, and the operands' indices at output entry `(a, b)` and contraction position `c` are named by
  their coordinates, axis by axis: each operand's row reads its own output coordinate, each operand's column reads `c`.
-/
import Idealize.ShloMosaic.PureOps.Ideal.Laws
import Idealize.ShloMosaic.Lib.ValueIdx

noncomputable section

open scoped BigOperators

namespace Idealize.ShloMosaic.GramMatmul

open Idealize.ShloMosaic Idealize.ShloMosaic.ValueIdx

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product against the transposed right operand, into the zero accumulator, at an entry**:
    `∑ c, A[a,c] · B[b,c]`, at the ideal values, whatever the operands' formats and the precision key. -/
theorem matmul_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end Idealize.ShloMosaic.GramMatmul

end
-- ==== Proof.KernelPayload.lean ====
/-
  The kernel's arithmetic read at one entry, over the extended reals.

  The kernel holds two pure computations.  The first, done once, takes the block `H` and makes the rows of the linear
  layer: each row of `H` divided by its Euclidean length (floored at a tiny constant), each column centred by its mean
  over the 4096 rows and scaled by the reciprocal square root of its biased variance plus epsilon, the affine map, and
  the product with the transposed weights plus the bias.  The second, done at every grid point, multiplies two
  half-row blocks of `A` with the upper and lower halves of the stored rows, adds the two products and applies the
  leaky rectifier.

  Each computation is cut into stages (unit rows, column mean, centring, normalising, linear layer); a stage is a
  function of whole arrays, and the lemma beside it says what the stage holds at an entry `(r, k)`.  Composing the
  stages gives the two statements at the end: the stored value and the output, at an entry, are the specification's.
-/
import proofs.«171944_g35983236006066_cont_8to1_b_995_5_alg».proof.Proof.Gen.KernelIdeal.Skeleton
import proofs.«171944_g35983236006066_cont_8to1_b_995_5_alg».proof.Proof.GcnSpec
import proofs.«171944_g35983236006066_cont_8to1_b_995_5_alg».proof.Proof.LibColumnLayout
import proofs.«171944_g35983236006066_cont_8to1_b_995_5_alg».proof.Proof.LibRowLayout
import proofs.«171944_g35983236006066_cont_8to1_b_995_5_alg».proof.Proof.LibGramMatmul
import proofs.«171944_g35983236006066_cont_8to1_b_995_5_alg».proof.Proof.LibPlainMatmul

noncomputable section

namespace Cert.KernelIdeal.Payload

open Cert.KernelIdeal Cert.KernelIdeal.Gen Idealize.ShloMosaic Idealize.ShloMosaic.ValueIdx

/-! ## Rows kept as `[1, 128]` arrays -/

/-- A row broadcast over the 4096 rows reads, at `(r, k)`, the row's entry `k`. -/
theorem row_apply (v : FVec Ideal S1x128 .f32) (r : Fin 4096) (k : Fin 128) :
    broadcastTo S4096x128 v broadcasts_S1x128_S4096x128 (ix2 r k) = v (ix2 0 k) :=
  broadcastTo_1b_ab_apply v broadcasts_S1x128_S4096x128 r k

/-- The same after a cast of the row to its own shape. -/
theorem rowCast_apply (v : FVec Ideal S1x128 .f32) (r : Fin 4096) (k : Fin 128) :
    broadcastTo S4096x128 (shapeCast S1x128 v shapeCasts_S1x128_S1x128) broadcasts_S1x128_S4096x128 (ix2 r k)
      = v (ix2 0 k) :=
  (row_apply _ r k).trans (congrFun (shapeCast_self v shapeCasts_S1x128_S1x128) _)

/-! ## Unit rows -/

/-- The rows of `x`, each divided by its Euclidean length floored at the tiny constant. -/
def unitT (x : FVec Ideal S4096x128 .f32) : FVec Ideal S4096x128 .f32 :=
  divf x (broadcastTo S4096x128
    (maximumf
      (sqrt (shapeCast S4096x1
        (multiReduction .add [1] S4096 (mulf x x) 0x00000000#32 reduces_S4096x128_S4096 (.inl rfl) rfl)
        shapeCasts_S4096_S4096x1))
      (broadcast S4096x1 (Scalar.ofBits (F := Ideal) .f32 0x2B8CBCCC#32)))
    broadcasts_S4096x1_S4096x128)

/-- At `(r, k)`: the entry over the floored length of row `r`. -/
theorem unitT_apply (x : FVec Ideal S4096x128 .f32) (r : Fin 4096) (k : Fin 128) :
    unitT x (ix2 r k) = Cert.Gcn.unitRow (Cert.Gcn.cur2 x) r k := by
  unfold unitT Cert.Gcn.unitRow
  refine (divf_apply _ _ _).trans (congrArg (Ideal.div (x (ix2 r k))) ?_)
  refine (ColumnLayout.broadcastTo_a1_ab_apply _ broadcasts_S4096x1_S4096x128 r k).trans ?_
  refine (maximumf_apply _ _ _).trans (congrArg (max · Cert.Gcn.tiny) ?_)
  refine congrArg Ideal.sqrt ?_
  refine (ColumnLayout.shapeCast_a_a1_apply _ shapeCasts_S4096_S4096x1 r 0).trans ?_
  exact ColumnLayout.rowSum_apply (mulf x x) reduces_S4096x128_S4096 (.inl rfl) rfl r

/-! ## Column means, centring -/

/-- The column means of `x` over the 4096 rows, kept as a row. -/
def colMeanT (x : FVec Ideal S4096x128 .f32) : FVec Ideal S1x128 .f32 :=
  divf
    (shapeCast S1x128 (multiReduction .add [0] S128 x 0x00000000#32 reduces_S4096x128_S128 (.inl rfl) rfl)
      shapeCasts_S128_S1x128)
    (broadcast S1x128 (Scalar.ofBits (F := Ideal) .f32 0x45800000#32))

/-- At column `k`: the column's sum over the number of rows. -/
theorem colMeanT_apply (x : FVec Ideal S4096x128 .f32) (k : Fin 128) :
    colMeanT x (ix2 0 k) = Ideal.div (∑ r : Fin 4096, x (ix2 r k)) Cert.Gcn.rows := by
  unfold colMeanT
  refine (divf_apply _ _ _).trans (congrArg (Ideal.div · Cert.Gcn.rows) ?_)
  refine (shapeCast_a_1a_apply _ shapeCasts_S128_S1x128 0 k).trans ?_
  exact RowLayout.colSum_apply x reduces_S4096x128_S128 (.inl rfl) rfl k

/-- Every entry of `x` less its column's mean. -/
def centredT (x : FVec Ideal S4096x128 .f32) : FVec Ideal S4096x128 .f32 :=
  subf x (broadcastTo S4096x128 (colMeanT x) broadcasts_S1x128_S4096x128)

/-- At `(r, k)`: the entry less the mean of column `k`. -/
theorem centredT_apply (x : FVec Ideal S4096x128 .f32) (r : Fin 4096) (k : Fin 128) :
    centredT x (ix2 r k) = x (ix2 r k) - Ideal.div (∑ r' : Fin 4096, x (ix2 r' k)) Cert.Gcn.rows := by
  unfold centredT
  refine (subf_apply _ _ _).trans (congrArg (x (ix2 r k) - ·) ?_)
  exact (row_apply _ r k).trans (colMeanT_apply x k)

/-! ## Scaling by the reciprocal square root of the variance, and the affine map -/

/-- Centred entries `y` times the reciprocal square root of their column's mean square plus epsilon, times `g`, plus `be`. -/
def normT (y : FVec Ideal S4096x128 .f32) (g be : FVec Ideal S1x128 .f32) : FVec Ideal S4096x128 .f32 :=
  addf
    (mulf
      (mulf y (broadcastTo S4096x128
        (rsqrt (addf (colMeanT (mulf y y)) (broadcast S1x128 (Scalar.ofBits (F := Ideal) .f32 0x3727C5AC#32))))
        broadcasts_S1x128_S4096x128))
      (broadcastTo S4096x128 (shapeCast S1x128 g shapeCasts_S1x128_S1x128) broadcasts_S1x128_S4096x128))
    (broadcastTo S4096x128 (shapeCast S1x128 be shapeCasts_S1x128_S1x128) broadcasts_S1x128_S4096x128)

/-- At `(r, k)`. -/
theorem normT_apply (y : FVec Ideal S4096x128 .f32) (g be : FVec Ideal S1x128 .f32) (r : Fin 4096) (k : Fin 128) :
    normT y g be (ix2 r k)
      = y (ix2 r k) * Ideal.rsqrt (Ideal.div (∑ r' : Fin 4096, y (ix2 r' k) * y (ix2 r' k)) Cert.Gcn.rows + Cert.Gcn.eps)
          * g (ix2 0 k) + be (ix2 0 k) := by
  unfold normT
  refine (addf_apply _ _ _).trans (congrArg₂ (· + ·) ?_ (rowCast_apply be r k))
  refine (mulf_apply _ _ _).trans (congrArg₂ (· * ·) ?_ (rowCast_apply g r k))
  refine (mulf_apply _ _ _).trans (congrArg (y (ix2 r k) * ·) ?_)
  refine (row_apply _ r k).trans (congrArg Ideal.rsqrt ?_)
  refine (addf_apply _ _ _).trans (congrArg (· + Cert.Gcn.eps) ?_)
  exact colMeanT_apply (mulf y y) k

/-! ## The linear layer -/

/-- The product's dimension record is the one of a product against a transposed right operand. -/
theorem dot_gram : dot_S4096x128_S128x128_S4096x128_1_1_0_0_n_n = DotDims.transposedRhs 4096 128 128 := rfl

/-- Rows `z` times the transposed weights, plus the bias row. -/
def linearT (z : FVec Ideal S4096x128 .f32) (W : FVec Ideal S128x128 .f32) (b : FVec Ideal S1x128 .f32) :
    FVec Ideal S4096x128 .f32 :=
  addf (matmul dot_S4096x128_S128x128_S4096x128_1_1_0_0_n_n none z W (constant S4096x128 .f32 0x00000000#32))
    (broadcastTo S4096x128 (shapeCast S1x128 b shapeCasts_S1x128_S1x128) broadcasts_S1x128_S4096x128)

/-- At `(r, j)`: row `r` of `z` against row `j` of the weights, plus the bias at `j`. -/
theorem linearT_apply (z : FVec Ideal S4096x128 .f32) (W : FVec Ideal S128x128 .f32) (b : FVec Ideal S1x128 .f32)
    (r : Fin 4096) (j : Fin 128) :
    linearT z W b (ix2 r j) = (∑ k : Fin 128, z (ix2 r k) * W (ix2 j k)) + b (ix2 0 j) := by
  unfold linearT
  refine (addf_apply _ _ _).trans (congrArg₂ (· + ·) ?_ (rowCast_apply b r j))
  rw [dot_gram]
  exact GramMatmul.matmul_zero_apply none z W r j

/-! ## The stored rows at an entry -/

/-- The first computation is the four stages composed. -/
theorem pay3_eq (v16 : Vec Ideal S4096x128 .f32) (v41 v45 : Vec Ideal S1x128 .f32) (v49 : Vec Ideal S128x128 .f32)
    (v51 : Vec Ideal S1x128 .f32) :
    k0_pay3 v16 v41 v45 v49 v51 = linearT (normT (centredT (unitT v16)) v41 v45) v49 v51 := rfl

/-- Centred unit rows are the specification's. -/
theorem centred_eq (x : FVec Ideal S4096x128 .f32) (r : Fin 4096) (k : Fin 128) :
    centredT (unitT x) (ix2 r k) = Cert.Gcn.centred (Cert.Gcn.cur2 x) r k := by
  unfold Cert.Gcn.centred Cert.Gcn.colMean
  refine (centredT_apply _ r k).trans ?_
  refine congrArg₂ (· - ·) (unitT_apply x r k) ?_
  exact congrArg (Ideal.div · Cert.Gcn.rows) (Finset.sum_congr rfl fun r' _ => unitT_apply x r' k)

/-- The normalised rows are the specification's. -/
theorem norm_eq (x : FVec Ideal S4096x128 .f32) (g be : FVec Ideal S1x128 .f32) (r : Fin 4096) (k : Fin 128) :
    normT (centredT (unitT x)) g be (ix2 r k)
      = Cert.Gcn.normMul (Cert.Gcn.cur2 x) (fun k' => g (ix2 0 k')) (fun k' => be (ix2 0 k')) r k := by
  unfold Cert.Gcn.normMul Cert.Gcn.colVar
  refine (normT_apply _ g be r k).trans ?_
  simp only [centred_eq]

/-- **The value stored into the scratch rows, at an entry**: the specification's linear layer on normalised rows. -/
theorem scratch_apply (v16 : Vec Ideal S4096x128 .f32) (v41 v45 v51 : Vec Ideal S1x128 .f32) (v49 : Vec Ideal S128x128 .f32)
    (r : Fin 4096) (j : Fin 128) :
    k0_pay1 (k0_pay3 v16 v41 v45 v49 v51) (ix2 r j)
      = Cert.Gcn.linear (Cert.Gcn.cur2 v49) (fun j' => v51 (ix2 0 j'))
          (Cert.Gcn.normMul (Cert.Gcn.cur2 v16) (fun k => v41 (ix2 0 k)) (fun k => v45 (ix2 0 k))) r j := by
  unfold k0_pay1 Cert.Gcn.linear
  refine (congrFun (shapeCast_self _ shapeCasts_S4096x128_S4096x128) _).trans ?_
  refine (congrFun (pay3_eq v16 v41 v45 v49 v51) _).trans ?_
  refine (linearT_apply _ _ _ r j).trans ?_
  exact congrArg (· + v51 (ix2 0 j))
    (Finset.sum_congr rfl fun k _ => congrArg (· * v49 (ix2 j k)) (norm_eq v16 v41 v45 r k))

/-! ## The output block at an entry -/

/-- The product's dimension record is the plain one. -/
theorem dot_plain : dot_S512x2048_S2048x128_S512x128_1_0_0_1_n_n = DotDims.plain 512 2048 128 := rfl

/-- A plain product of a half-row block with a half of the stored rows, into zero, at an entry. -/
theorem half_apply (a : FVec Ideal S512x2048 .f32) (y : FVec Ideal S2048x128 .f32) (p : Fin 512) (j : Fin 128) :
    matmul dot_S512x2048_S2048x128_S512x128_1_0_0_1_n_n none a y (constant S512x128 .f32 0x00000000#32) (ix2 p j)
      = ∑ k : Fin 2048, a (ix2 p k) * y (ix2 k j) := by
  rw [dot_plain]
  exact PlainMatmul.matmul_zero_apply none a y p j

/-- The leaky rectifier applied to every entry of `y`, as the kernel spells it. -/
def leakyT (y : FVec Ideal S512x128 .f32) : FVec Ideal S512x128 .f32 :=
  select (cmpf .oge y (broadcast S512x128 (Scalar.ofBits (F := Ideal) .f32 0x00000000#32))) y
    (mulf (broadcast S512x128 (Scalar.ofBits (F := Ideal) .f32 0x3C23D70A#32)) y)

/-- At an entry it is the specification's rectifier of the entry. -/
theorem leakyT_apply (y : FVec Ideal S512x128 .f32) (i : S512x128.Idx) : leakyT y i = Cert.Gcn.leaky (y i) := rfl

/-- The sum of the two half products: blocks `a`, `a'` of `A` against the upper and lower halves `y`, `y'` of the rows. -/
def halvesT (a a' : FVec Ideal S512x2048 .f32) (y y' : FVec Ideal S2048x128 .f32) : FVec Ideal S512x128 .f32 :=
  addf
    (matmul dot_S512x2048_S2048x128_S512x128_1_0_0_1_n_n none a y (constant S512x128 .f32 0x00000000#32))
    (matmul dot_S512x2048_S2048x128_S512x128_1_0_0_1_n_n none a' y' (constant S512x128 .f32 0x00000000#32))

/-- The second computation is the rectifier of the sum of the two half products. -/
theorem pay2_eq (v3 v6 : Vec Ideal S512x2048 .f32) (v4 v7 : Vec Ideal S2048x128 .f32) :
    k0_pay2 v3 v4 v6 v7 = leakyT (halvesT v3 v6 v4 v7) := rfl

/-- **The value stored into the output block, at an entry**: the rectifier of the sum, over both halves of the
    columns, of the block of `A` against the stored rows. -/
theorem out_apply (v3 v6 : Vec Ideal S512x2048 .f32) (v4 v7 : Vec Ideal S2048x128 .f32) (p : Fin 512) (j : Fin 128) :
    k0_pay2 v3 v4 v6 v7 (ix2 p j)
      = Cert.Gcn.leaky ((∑ k : Fin 2048, v3 (ix2 p k) * v4 (ix2 k j)) + ∑ k : Fin 2048, v6 (ix2 p k) * v7 (ix2 k j)) := by
  refine (congrFun (pay2_eq v3 v6 v4 v7) _).trans ?_
  refine (leakyT_apply _ _).trans (congrArg Cert.Gcn.leaky ?_)
  unfold halvesT
  exact (addf_apply _ _ _).trans (congrArg₂ (· + ·) (half_apply v3 v4 p j) (half_apply v6 v7 p j))

end Cert.KernelIdeal.Payload

end
-- ==== Proof.KernelPieces.lean ====
/-
  What the kernel's two stores leave, read at an entry, over the extended reals.

  The body stores twice, each time through a whole buffer: the scratch rows (the linear layer's output of the five input
  blocks) and the output block (the rectified sum of the two half products of the blocks of `A` with the upper and lower
  halves of the scratch rows).  A store through a whole buffer leaves its payload, a load through a whole buffer reads the
  contents, and a load through the upper or lower half of the scratch reads rows `k` and `2048 + k`; with the payloads
  read at an entry this gives both stores at an entry as the specification's functions of the blocks.
-/
import proofs.«171944_g35983236006066_cont_8to1_b_995_5_alg».proof.Proof.KernelBody
import proofs.«171944_g35983236006066_cont_8to1_b_995_5_alg».proof.Proof.KernelPayload

noncomputable section

namespace Cert.Proof.KernelIdealValue

open Cert.KernelIdeal Cert.KernelIdeal.Gen Cert.Proof.KernelIdealRun
open Idealize.ShloMosaic Idealize.ShloMosaic.ValueIdx

/-- The zero offsets of a whole-buffer rectangle. -/
theorem offs_zero : (![0, 0] : Fin 2 → Nat) = fun _ => 0 := funext fun a => by fin_cases a <;> rfl

/-- The upper half of the scratch read at `(k, j)` is the scratch at row `k`. -/
theorem ld_lo (s : Vec Ideal S4096x128 .f32) (k : Fin 2048) (j : Fin 128) :
    View.ld s rLo (ix2 k j : S2048x128.Idx) = s (ix2 (Cert.Gcn.lo k) j) :=
  congrArg s (funext fun a => Fin.ext (by
    match a with
    | ⟨0, _⟩ => show 0 + 1 * k.val = k.val; omega
    | ⟨1, _⟩ => show 0 + 1 * j.val = j.val; omega))

/-- The lower half of the scratch read at `(k, j)` is the scratch at row `2048 + k`. -/
theorem ld_hi (s : Vec Ideal S4096x128 .f32) (k : Fin 2048) (j : Fin 128) :
    View.ld s rHi (ix2 k j : S2048x128.Idx) = s (ix2 (Cert.Gcn.hi k) j) :=
  congrArg s (funext fun a => Fin.ext (by
    match a with
    | ⟨0, _⟩ => show 2048 + 1 * k.val = 2048 + k.val; omega
    | ⟨1, _⟩ => show 0 + 1 * j.val = j.val; omega))

/-- **The scratch after the first point, at an entry**: the linear layer on the normalised rows of block `x0`, with
    weights `x1`, bias row `x2`, scale row `x3` and shift row `x4`. -/
theorem linv_apply (x0 : Vec Ideal S4096x128 .f32) (x1 : Vec Ideal S128x128 .f32) (x2 x3 x4 : Vec Ideal S1x128 .f32)
    (r : Fin 4096) (j : Fin 128) :
    linv x0 x1 x2 x3 x4 (ix2 r j)
      = Cert.Gcn.linear (Cert.Gcn.cur2 x1) (fun j' => x2 (ix2 0 j'))
          (Cert.Gcn.normMul (Cert.Gcn.cur2 x0) (fun k => x3 (ix2 0 k)) (fun k => x4 (ix2 0 k))) r j := by
  refine (congrFun (View.canon_unit_zero offs_zero _ _) _).trans ?_
  simp only [View.ld_unit_zero (S := S4096x128) offs_zero, View.ld_unit_zero (S := S128x128) offs_zero,
    View.ld_unit_zero (S := S1x128) offs_zero]
  exact Cert.KernelIdeal.Payload.scratch_apply x0 x3 x4 x2 x1 r j

/-- **The block a point stores, at an entry**: the rectifier of the sum, over both halves of the columns, of the blocks
    `x5`, `x6` of `A` against rows `k` and `2048 + k` of the scratch `s`. -/
theorem outv_apply (x5 x6 : Vec Ideal S512x2048 .f32) (s : Vec Ideal S4096x128 .f32) (p : Fin 512) (j : Fin 128) :
    outv x5 x6 s (ix2 p j)
      = Cert.Gcn.leaky ((∑ k : Fin 2048, x5 (ix2 p k) * s (ix2 (Cert.Gcn.lo k) j))
          + ∑ k : Fin 2048, x6 (ix2 p k) * s (ix2 (Cert.Gcn.hi k) j)) := by
  refine (congrFun (View.canon_unit_zero offs_zero _ _) _).trans ?_
  simp only [View.ld_unit_zero (S := S512x2048) offs_zero]
  refine (Cert.KernelIdeal.Payload.out_apply x5 x6 (View.ld s rLo) (View.ld s rHi) p j).trans ?_
  refine congrArg Cert.Gcn.leaky (congrArg₂ (· + ·) ?_ ?_)
  · exact Finset.sum_congr rfl fun k _ => congrArg (x5 (ix2 p k) * ·) (ld_lo s k j)
  · exact Finset.sum_congr rfl fun k _ => congrArg (x6 (ix2 p k) * ·) (ld_hi s k j)

end Cert.Proof.KernelIdealValue

end
-- ==== Proof.KernelValue.lean ====
/-
  The kernel's value: what the result array holds when the program ends, entry by entry, over the extended reals.

  Three things are read off the run.  The three reshapes leave `b`, `gamma`, `beta` as rows, entry `(0, j)` of a row
  being entry `j` of the vector.  The five small operands are staged whole, so each of their blocks is the array; the
  two windows on `A` hold, at grid point `t`, rows `512 t … 512 t + 511` of the left and right column halves.  So the
  scratch rows after the first point are the specification's linear layer on the normalised rows of `H`, and the block
  point `t` writes back is rows `512 t … 512 t + 511` of the specification's output (the product with `A` taken half
  by half).  The eight blocks tile the result, which therefore ends holding that output.
-/
import proofs.«171944_g35983236006066_cont_8to1_b_995_5_alg».proof.Proof.KernelRun
import proofs.«171944_g35983236006066_cont_8to1_b_995_5_alg».proof.Proof.KernelBlocks
import proofs.«171944_g35983236006066_cont_8to1_b_995_5_alg».proof.Proof.KernelPieces

noncomputable section

namespace Cert.Proof.KernelIdealValue

open Cert.KernelIdeal Cert.KernelIdeal.Gen Cert.Proof.KernelIdealRun
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The reshaped rows -/

/-- The bias as a row: entry `(0, j)` is entry `j` of `b`. -/
theorem V_v0_apply (c : Dev nD) (j : Fin 128) :
    (V m c main_v0 : S1x128.Idx → EReal) (ix2 0 j) = (m ((c : Thread nD τ).loc main_arg3) : S128.Idx → EReal) (ix1 j) := by
  have e : (V m c main_v0 : S1x128.Idx → EReal)
      = shapeCast S1x128 (m ((c : Thread nD τ).loc main_arg3) : S128.Idx → EReal) shapeCasts_S128_S1x128 := by
    dsimp only [V, hostOps0]; after_results; rfl
  exact (congrFun e _).trans (shapeCast_a_1a_apply _ shapeCasts_S128_S1x128 0 j)

/-- The scale as a row: entry `(0, j)` is entry `j` of `gamma`. -/
theorem V_v1_apply (c : Dev nD) (j : Fin 128) :
    (V m c main_v1 : S1x128.Idx → EReal) (ix2 0 j) = (m ((c : Thread nD τ).loc main_arg4) : S128.Idx → EReal) (ix1 j) := by
  have e : (V m c main_v1 : S1x128.Idx → EReal)
      = shapeCast S1x128 (m ((c : Thread nD τ).loc main_arg4) : S128.Idx → EReal) shapeCasts_S128_S1x128 := by
    dsimp only [V, hostOps0]; after_results; rfl
  exact (congrFun e _).trans (shapeCast_a_1a_apply _ shapeCasts_S128_S1x128 0 j)

/-- The shift as a row: entry `(0, j)` is entry `j` of `beta`. -/
theorem V_v2_apply (c : Dev nD) (j : Fin 128) :
    (V m c main_v2 : S1x128.Idx → EReal) (ix2 0 j) = (m ((c : Thread nD τ).loc main_arg5) : S128.Idx → EReal) (ix1 j) := by
  have e : (V m c main_v2 : S1x128.Idx → EReal)
      = shapeCast S1x128 (m ((c : Thread nD τ).loc main_arg5) : S128.Idx → EReal) shapeCasts_S128_S1x128 := by
    dsimp only [V, hostOps0]; after_results; rfl
  exact (congrFun e _).trans (shapeCast_a_1a_apply _ shapeCasts_S128_S1x128 0 j)

/-! ## The windows' blocks -/

/-- The block of `H` is `H`. -/
theorem iblk0 (c : Dev nD) (t : Fin cfg0.N) :
    (iblk m c 0 t : S4096x128.Idx → EReal) = m ((c : Thread nD τ).loc main_arg0) :=
  (Cert.KernelIdeal.Blocks.read0 t _).trans (V_main_arg0 m c)

/-- The block of `W` is `W`. -/
theorem iblk1 (c : Dev nD) (t : Fin cfg0.N) :
    (iblk m c 1 t : S128x128.Idx → EReal) = m ((c : Thread nD τ).loc main_arg2) :=
  (Cert.KernelIdeal.Blocks.read1 t _).trans (V_main_arg2 m c)

/-- The block of the bias row, at `(0, j)`, is `b` at `j`. -/
theorem iblk2_apply (c : Dev nD) (t : Fin cfg0.N) (j : Fin 128) :
    (iblk m c 2 t : S1x128.Idx → EReal) (ix2 0 j) = (m ((c : Thread nD τ).loc main_arg3) : S128.Idx → EReal) (ix1 j) :=
  (congrFun (Cert.KernelIdeal.Blocks.read2 t (V m c main_v0 : S1x128.Idx → EReal)) _).trans (V_v0_apply m c j)

/-- The block of the scale row, at `(0, j)`, is `gamma` at `j`. -/
theorem iblk3_apply (c : Dev nD) (t : Fin cfg0.N) (j : Fin 128) :
    (iblk m c 3 t : S1x128.Idx → EReal) (ix2 0 j) = (m ((c : Thread nD τ).loc main_arg4) : S128.Idx → EReal) (ix1 j) :=
  (congrFun (Cert.KernelIdeal.Blocks.read3 t (V m c main_v1 : S1x128.Idx → EReal)) _).trans (V_v1_apply m c j)

/-- The block of the shift row, at `(0, j)`, is `beta` at `j`. -/
theorem iblk4_apply (c : Dev nD) (t : Fin cfg0.N) (j : Fin 128) :
    (iblk m c 4 t : S1x128.Idx → EReal) (ix2 0 j) = (m ((c : Thread nD τ).loc main_arg5) : S128.Idx → EReal) (ix1 j) :=
  (congrFun (Cert.KernelIdeal.Blocks.read4 t (V m c main_v2 : S1x128.Idx → EReal)) _).trans (V_v2_apply m c j)

/-- The left block of `A` at point `t`, at `(p, k)`: row `512 t + p`, column `k`. -/
theorem iblk5_apply (c : Dev nD) (t : Fin cfg0.N) (p : Fin 512) (k : Fin 2048) :
    (iblk m c 5 t : S512x2048.Idx → EReal) (ix2 p k)
      = (m ((c : Thread nD τ).loc main_arg1) : S4096x4096.Idx → EReal) (ix2 (Cert.KernelIdeal.Blocks.rowOf t p) (Cert.Gcn.lo k)) :=
  (Cert.KernelIdeal.Blocks.read5_apply t (V m c main_arg1 : S4096x4096.Idx → EReal) p k).trans (congrFun (V_main_arg1 m c) _)

/-- The right block of `A` at point `t`, at `(p, k)`: row `512 t + p`, column `2048 + k`. -/
theorem iblk6_apply (c : Dev nD) (t : Fin cfg0.N) (p : Fin 512) (k : Fin 2048) :
    (iblk m c 6 t : S512x2048.Idx → EReal) (ix2 p k)
      = (m ((c : Thread nD τ).loc main_arg1) : S4096x4096.Idx → EReal) (ix2 (Cert.KernelIdeal.Blocks.rowOf t p) (Cert.Gcn.hi k)) :=
  (Cert.KernelIdeal.Blocks.read6_apply t (V m c main_arg1 : S4096x4096.Idx → EReal) p k).trans (congrFun (V_main_arg1 m c) _)

/-! ## The scratch rows and a point's block, by the arrays -/

section Spec

variable (c : Dev nD)

/-- The six arrays as the program is given them, by coordinates. -/
abbrev Hm : Fin 4096 → Fin 128 → EReal := Cert.Gcn.cur2 (m ((c : Thread nD τ).loc main_arg0) : S4096x128.Idx → EReal)
abbrev Am : Fin 4096 → Fin 4096 → EReal := Cert.Gcn.cur2 (m ((c : Thread nD τ).loc main_arg1) : S4096x4096.Idx → EReal)
abbrev Wm : Fin 128 → Fin 128 → EReal := Cert.Gcn.cur2 (m ((c : Thread nD τ).loc main_arg2) : S128x128.Idx → EReal)
abbrev bm : Fin 128 → EReal := Cert.Gcn.cur1 (m ((c : Thread nD τ).loc main_arg3) : S128.Idx → EReal)
abbrev gm : Fin 128 → EReal := Cert.Gcn.cur1 (m ((c : Thread nD τ).loc main_arg4) : S128.Idx → EReal)
abbrev bem : Fin 128 → EReal := Cert.Gcn.cur1 (m ((c : Thread nD τ).loc main_arg5) : S128.Idx → EReal)

end Spec

/-- The scratch at an entry, when the five blocks are known: the two matrices as whole arrays, the three rows entry by
    entry. -/
theorem linv_apply_of (x0 : Vec Ideal S4096x128 .f32) (x1 : Vec Ideal S128x128 .f32) (x2 x3 x4 : Vec Ideal S1x128 .f32)
    (H' : S4096x128.Idx → EReal) (W' : S128x128.Idx → EReal) (b' g' be' : S128.Idx → EReal)
    (h0 : x0 = H') (h1 : x1 = W') (h2 : ∀ j, x2 (ix2 0 j) = b' (ix1 j)) (h3 : ∀ j, x3 (ix2 0 j) = g' (ix1 j))
    (h4 : ∀ j, x4 (ix2 0 j) = be' (ix1 j)) (r : Fin 4096) (j : Fin 128) :
    linv x0 x1 x2 x3 x4 (ix2 r j)
      = Cert.Gcn.linear (Cert.Gcn.cur2 W') (Cert.Gcn.cur1 b')
          (Cert.Gcn.normMul (Cert.Gcn.cur2 H') (Cert.Gcn.cur1 g') (Cert.Gcn.cur1 be')) r j := by
  subst h0 h1
  have e2 : (fun j' => x2 (ix2 0 j')) = Cert.Gcn.cur1 b' := funext h2
  have e3 : (fun k => x3 (ix2 0 k)) = Cert.Gcn.cur1 g' := funext h3
  have e4 : (fun k => x4 (ix2 0 k)) = Cert.Gcn.cur1 be' := funext h4
  rw [linv_apply, e2, e3, e4]

/-- **The scratch rows from the first point on, at an entry**: the specification's linear layer on the normalised rows. -/
theorem lin0_apply (c : Dev nD) (r : Fin 4096) (j : Fin 128) :
    lin0 m c (ix2 r j) = Cert.Gcn.linear (Wm m c) (bm m c) (Cert.Gcn.normMul (Hm m c) (gm m c) (bem m c)) r j := by
  unfold lin0
  exact linv_apply_of (iblk m c 0 t0_0) (iblk m c 1 t0_0) (iblk m c 2 t0_0) (iblk m c 3 t0_0) (iblk m c 4 t0_0)
    (m ((c : Thread nD τ).loc main_arg0)) (m ((c : Thread nD τ).loc main_arg2)) (m ((c : Thread nD τ).loc main_arg3))
    (m ((c : Thread nD τ).loc main_arg4)) (m ((c : Thread nD τ).loc main_arg5))
    (iblk0 m c t0_0) (iblk1 m c t0_0) (iblk2_apply m c t0_0) (iblk3_apply m c t0_0) (iblk4_apply m c t0_0) r j

/-- A point's block at an entry, when its two blocks of `A` are rows of an array `A'` at row `r` and the scratch is a
    function `L` of its coordinates. -/
theorem outv_apply_of (x5 x6 : Vec Ideal S512x2048 .f32) (s : Vec Ideal S4096x128 .f32) (A' : S4096x4096.Idx → EReal)
    (L : Fin 4096 → Fin 128 → EReal) (r : Fin 4096) (p : Fin 512)
    (h5 : ∀ k, x5 (ix2 p k) = A' (ix2 r (Cert.Gcn.lo k))) (h6 : ∀ k, x6 (ix2 p k) = A' (ix2 r (Cert.Gcn.hi k)))
    (hs : ∀ r' j', s (ix2 r' j') = L r' j') (j : Fin 128) :
    outv x5 x6 s (ix2 p j)
      = Cert.Gcn.leaky ((∑ k : Fin 2048, Cert.Gcn.cur2 A' r (Cert.Gcn.lo k) * L (Cert.Gcn.lo k) j)
          + ∑ k : Fin 2048, Cert.Gcn.cur2 A' r (Cert.Gcn.hi k) * L (Cert.Gcn.hi k) j) := by
  refine (outv_apply x5 x6 s p j).trans (congrArg Cert.Gcn.leaky (congrArg₂ (· + ·) ?_ ?_))
  · exact Finset.sum_congr rfl fun k _ => congrArg₂ (· * ·) (h5 k) (hs _ _)
  · exact Finset.sum_congr rfl fun k _ => congrArg₂ (· * ·) (h6 k) (hs _ _)

/-- **What point `t` leaves in the result's staging buffer, at an entry**: row `512 t + p` of the specification's output. -/
theorem outAt_apply (c : Dev nD) (t : Fin cfg0.N) (p : Fin 512) (j : Fin 128) :
    outAt m c t (ix2 p j)
      = Cert.Gcn.outHalves (Hm m c) (Am m c) (Wm m c) (bm m c) (gm m c) (bem m c) (Cert.KernelIdeal.Blocks.rowOf t p) j := by
  unfold outAt Cert.Gcn.outHalves
  exact outv_apply_of (iblk m c 5 t) (iblk m c 6 t) (lin0 m c) (m ((c : Thread nD τ).loc main_arg1))
    (Cert.Gcn.linear (Wm m c) (bm m c) (Cert.Gcn.normMul (Hm m c) (gm m c) (bem m c))) (Cert.KernelIdeal.Blocks.rowOf t p) p
    (iblk5_apply m c t p) (iblk6_apply m c t p) (lin0_apply m c) j

/-! ## The result array -/

/-- The specification's output, as contents of the result array. -/
def Gout (c : Dev nD) : S4096x128.Idx → EReal :=
  fun i => Cert.Gcn.outHalves (Hm m c) (Am m c) (Wm m c) (bm m c) (gm m c) (bem m c) (i 0) (i 1)

/-- What point `t` writes back is its block of the specification's output. -/
theorem flushed7_eq (c : Dev nD) (t : Fin cfg0.N) :
    (dats m 0 c).flushed 7 t = ((cfg0.win 7).blk t).view.read (Elt Ideal) (Gout m c) := by
  show (cfg0.win 7).cut (grid0.coords t) ((dats m 0 c).after 7 t) = _
  rw [after_7]
  funext y
  obtain ⟨p, q, rfl⟩ : ∃ (p : Fin 512) (q : Fin 128), y = ix2 p q := ⟨y 0, y 1, eq_ix2 y⟩
  show outAt m c t (ix2 p q) = Gout m c (((cfg0.win 7).blk t).view.emb (ix2 p q))
  rw [Cert.KernelIdeal.Blocks.emb7]
  exact outAt_apply m c t p q

/-- **The result array after the last point** is the specification's output: the eight blocks tile it. -/
theorem result_eq (c : Dev nD) : (dats m 0 c).arrAt 7 cfg0.N = Gout m c :=
  (dats m 0 c).arrAt_eq_of_cover 7 (Gout m c) (fun t _ => flushed7_eq m c t) Cert.KernelIdeal.Blocks.cover7

/-- … entry by entry. -/
theorem result_apply (c : Dev nD) (r : Fin 4096) (j : Fin 128) :
    ((dats m 0 c).arrAt 7 cfg0.N : S4096x128.Idx → EReal) (ix2 r j)
      = Cert.Gcn.outHalves (Hm m c) (Am m c) (Wm m c) (bm m c) (gm m c) (bem m c) r j :=
  congrFun (result_eq m c) (ix2 r j)

/-- **The kernel's run, read**: the program terminates, the result array ends at the specification's output and the six
    argument arrays end as they began. -/
theorem run_value (ρ : Dev nD → PrngReg) :
    θ_run defs (onTc (τ := τ) (main (F := Ideal))) ⟨m, fun _ => 0, ρ⟩ (fun r => ∀ c : Dev nD,
      r.2.mem ((c.tc : Thread nD τ).loc main_v3) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (run_result m ρ)

end Cert.Proof.KernelIdealValue

end
-- ==== Proof.Equivalence.lean ====
/-
  The two programs compute one function.

  The reference's result array, entry by entry, is the layer with the quotient by the square root and the product with
  the 4096 × 4096 matrix as one sum; the kernel's result array, entry by entry, is the layer with the reciprocal square
  root and the product taken half by half.  The two spellings are one function of the six argument arrays at every
  extended real, so from memories that agree on the arguments both runs end with the same result.
-/
import proofs.«171944_g35983236006066_cont_8to1_b_995_5_alg».proof.Defs
import proofs.«171944_g35983236006066_cont_8to1_b_995_5_alg».proof.Proof.Gen.KernelIdeal
import proofs.«171944_g35983236006066_cont_8to1_b_995_5_alg».proof.Proof.Gen.ReferenceIdeal
import proofs.«171944_g35983236006066_cont_8to1_b_995_5_alg».proof.Proof.Gen.Pre_finite_inputs
import proofs.«171944_g35983236006066_cont_8to1_b_995_5_alg».proof.Proof.GcnLaws
import proofs.«171944_g35983236006066_cont_8to1_b_995_5_alg».proof.Proof.RefRun
import proofs.«171944_g35983236006066_cont_8to1_b_995_5_alg».proof.Proof.RefValue
import proofs.«171944_g35983236006066_cont_8to1_b_995_5_alg».proof.Proof.KernelRun
import proofs.«171944_g35983236006066_cont_8to1_b_995_5_alg».proof.Proof.KernelValue
import Idealize.ShloMosaic.Lib.ValueIdx

noncomputable section

namespace Cert.Proof.Equivalence

open Idealize.ShloMosaic Idealize.ShloMosaic.TcCoe Idealize.SL.Sem
open Idealize.ShloMosaic.ValueIdx
open Cert.Gcn (outHalves outWhole cur2 cur1)

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- Two 4096 × 128 arrays, one the layer's first spelling at every entry and the other its second spelling at every
    entry, of the same six arrays, are equal. -/
theorem results_agree (x0 : Arr2 4096 128) (x1 : Arr2 4096 4096) (x2 : Arr2 128 128) (x3 x4 x5 : Arr1 128)
    (R K : Arr2 4096 128)
    (hR : ∀ (r : Fin 4096) (j : Fin 128),
      R (ix2 r j) = outWhole (cur2 x0) (cur2 x1) (cur2 x2) (cur1 x3) (cur1 x4) (cur1 x5) r j)
    (hK : ∀ (r : Fin 4096) (j : Fin 128),
      K (ix2 r j) = outHalves (cur2 x0) (cur2 x1) (cur2 x2) (cur1 x3) (cur1 x4) (cur1 x5) r j) :
    R = K := by
  funext i
  obtain ⟨r, j, rfl⟩ : ∃ (r : Fin 4096) (j : Fin 128), i = ix2 r j := ⟨i 0, i 1, eq_ix2 i⟩
  rw [hR, hK, Cert.Gcn.outHalves_eq_outWhole]

/-- The assembly: given the reference's result entry by entry, a run of the kernel that ends with its result array
    at some `K` of the memory and its arguments unchanged, and `K` entry by entry, the two programs agree. -/
theorem algebraic_of
    (hres : ∀ (x0 : Cert.ReferenceIdeal.RefValue.Arr Ideal Cert.ReferenceIdeal.S4096x128)
        (x1 : Cert.ReferenceIdeal.RefValue.Arr Ideal Cert.ReferenceIdeal.S4096x4096)
        (x2 : Cert.ReferenceIdeal.RefValue.Arr Ideal Cert.ReferenceIdeal.S128x128)
        (x3 x4 x5 : Cert.ReferenceIdeal.RefValue.Arr Ideal Cert.ReferenceIdeal.S128) (r : Fin 4096) (j : Fin 128),
      Cert.ReferenceIdeal.RefValue.result x0 x1 x2 x3 x4 x5 (ix2 r j)
        = outWhole (cur2 x0) (cur2 x1) (cur2 x2) (cur1 x3) (cur1 x4) (cur1 x5) r j)
    (K : (m : (ℓ : Loc Cert.KernelIdeal.nD Cert.KernelIdeal.τ Cert.KernelIdeal.sig) → Buf (Elt Ideal) ℓ) →
      (c : Dev Cert.KernelIdeal.nD) →
      Buf (Elt Ideal) ((c.tc : Thread Cert.KernelIdeal.nD Cert.KernelIdeal.τ).loc Cert.KernelIdeal.main_v3))
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v3) = K m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)))
    (hK : ∀ (m : (ℓ : Loc Cert.KernelIdeal.nD Cert.KernelIdeal.τ Cert.KernelIdeal.sig) → Buf (Elt Ideal) ℓ)
        (c : Dev Cert.KernelIdeal.nD) (r : Fin 4096) (j : Fin 128),
      K m c (ix2 r j)
        = outHalves (cur2 (m ((c.tc : Thread Cert.KernelIdeal.nD Cert.KernelIdeal.τ).loc Cert.KernelIdeal.main_arg0)))
            (cur2 (m ((c.tc : Thread Cert.KernelIdeal.nD Cert.KernelIdeal.τ).loc Cert.KernelIdeal.main_arg1)))
            (cur2 (m ((c.tc : Thread Cert.KernelIdeal.nD Cert.KernelIdeal.τ).loc Cert.KernelIdeal.main_arg2)))
            (cur1 (m ((c.tc : Thread Cert.KernelIdeal.nD Cert.KernelIdeal.τ).loc Cert.KernelIdeal.main_arg3)))
            (cur1 (m ((c.tc : Thread Cert.KernelIdeal.nD Cert.KernelIdeal.τ).loc Cert.KernelIdeal.main_arg4)))
            (cur1 (m ((c.tc : Thread Cert.KernelIdeal.nD Cert.KernelIdeal.τ).loc Cert.KernelIdeal.main_arg5))) r j) :
    Cert.algebraic_KernelIdeal_ReferenceIdeal := by
  intro m ρ m' ρ' _ hagree
  refine ⟨K m, hrun m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact results_agree _ _ _ _ _ _ _ _ (hres _ _ _ _ _ _) (hK m c)

/-- The kernel's result array after its run: what its eight write-backs leave. -/
abbrev kernelResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v3) :=
  (Cert.Proof.KernelIdealRun.dats (F := Ideal) m 0 c).arrAt 7 Cert.KernelIdeal.cfg0.N

/-- The two programs agree, given the kernel's result array entry by entry. -/
theorem algebraic_of_entries
    (hK : ∀ (m : (ℓ : Loc Cert.KernelIdeal.nD Cert.KernelIdeal.τ Cert.KernelIdeal.sig) → Buf (Elt Ideal) ℓ)
        (c : Dev Cert.KernelIdeal.nD) (r : Fin 4096) (j : Fin 128),
      (Cert.Proof.KernelIdealRun.dats (F := Ideal) m 0 c).arrAt 7 Cert.KernelIdeal.cfg0.N (ix2 r j)
        = outHalves (cur2 (m ((c.tc : Thread Cert.KernelIdeal.nD Cert.KernelIdeal.τ).loc Cert.KernelIdeal.main_arg0)))
            (cur2 (m ((c.tc : Thread Cert.KernelIdeal.nD Cert.KernelIdeal.τ).loc Cert.KernelIdeal.main_arg1)))
            (cur2 (m ((c.tc : Thread Cert.KernelIdeal.nD Cert.KernelIdeal.τ).loc Cert.KernelIdeal.main_arg2)))
            (cur1 (m ((c.tc : Thread Cert.KernelIdeal.nD Cert.KernelIdeal.τ).loc Cert.KernelIdeal.main_arg3)))
            (cur1 (m ((c.tc : Thread Cert.KernelIdeal.nD Cert.KernelIdeal.τ).loc Cert.KernelIdeal.main_arg4)))
            (cur1 (m ((c.tc : Thread Cert.KernelIdeal.nD Cert.KernelIdeal.τ).loc Cert.KernelIdeal.main_arg5))) r j) :
    Cert.algebraic_KernelIdeal_ReferenceIdeal :=
  algebraic_of Cert.ReferenceIdeal.RefValue.result_apply kernelResult
    (fun m ρ => Cert.Proof.KernelIdealRun.run_result (F := Ideal) m ρ) hK

/-- The two programs agree: the kernel's result array, entry by entry, is the layer's half-by-half spelling. -/
theorem algebraic : Cert.algebraic_KernelIdeal_ReferenceIdeal :=
  algebraic_of_entries fun m c r j => Cert.Proof.KernelIdealValue.result_apply m c r j

/-- The kernel runs and leaves its arguments unchanged. -/
theorem frame_kernelIdeal : Cert.frame_KernelIdeal := fun m ρ _ => Cert.Proof.KernelIdealRun.frame (F := Ideal) m ρ

/-- The reference runs and leaves its arguments unchanged. -/
theorem frame_reference : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

end Cert.Proof.Equivalence

end
-- ==== Proof.lean ====
/-
  A graph-convolution layer computed by one fused kernel against its plain array reference, equal as extended reals.

  The layer: rows of `H` (4096 × 128) are scaled to unit Euclidean length, each column is centred and scaled by its batch
  mean and biased variance, an affine map (`gamma`, `beta`) and a linear layer (`W`, `b`) follow, the result is multiplied
  on the left by the 4096 × 4096 matrix `A`, and a leaky rectifier of slope 0.01 is applied.

  The kernel runs over 8 grid points.  At the first it computes the linear layer's output for all 4096 rows into a
  scratch buffer; at each point it takes 512 rows of `A` as two half-row blocks (columns 0–2047 and 2048–4095, two windows
  on the one array), multiplies them with the matching halves of the scratch, adds, rectifies and writes 512 rows of the
  result.  The reference does the same arithmetic whole-array.  The two differ only where the kernel multiplies by the
  reciprocal square root of variance-plus-epsilon and the reference divides by its square root — equal because that
  radicand is strictly positive for every input, the infinities included — and where the kernel adds two half sums and
  the reference one whole sum.  No finiteness of the inputs is used.

  The three programs' runs (termination, no fault, arguments unchanged) are proved in the modules imported here: the
  kernel's, once per float instance, from the body's two runs and the launch with the shared array's ownership dealt
  half and half to its two windows; the reference's from its operations listed in order.
-/
import proofs.«171944_g35983236006066_cont_8to1_b_995_5_alg».proof.Defs
import proofs.«171944_g35983236006066_cont_8to1_b_995_5_alg».proof.Proof.Gen.Kernel
import proofs.«171944_g35983236006066_cont_8to1_b_995_5_alg».proof.Proof.Gen.KernelIdeal
import proofs.«171944_g35983236006066_cont_8to1_b_995_5_alg».proof.Proof.Gen.ReferenceIdeal
import proofs.«171944_g35983236006066_cont_8to1_b_995_5_alg».proof.Proof.Gen.Pre_finite_inputs
import proofs.«171944_g35983236006066_cont_8to1_b_995_5_alg».proof.Proof.KernelRunWords
import proofs.«171944_g35983236006066_cont_8to1_b_995_5_alg».proof.Proof.Equivalence
import Idealize.ShloMosaic.Adequacy
import Idealize.ShloMosaic.Init

noncomputable section

namespace Cert.Proof

open Idealize.ShloMosaic Idealize.SL.Sem

/-- The kernel as printed runs to the end and leaves its six argument arrays as they were. -/
theorem frame_kernel : Cert.frame_Kernel (hKernel := Cert.Kernel.Gen.facts) (hPre_finite_inputs := Cert.Pre_finite_inputs.Gen.facts) :=
  fun m ρ _ => Cert.Proof.KernelRun.frame (F := Bits) m ρ

theorem claim : Cert.Claim :=
  ⟨Cert.Kernel.Gen.facts, Cert.KernelIdeal.Gen.facts, Cert.ReferenceIdeal.Gen.facts, Cert.Pre_finite_inputs.Gen.facts,
    frame_kernel, Cert.Proof.Equivalence.frame_kernelIdeal, Cert.Proof.Equivalence.frame_reference,
    Cert.Proof.Equivalence.preserves, Cert.Proof.Equivalence.algebraic⟩

end Cert.Proof

end
